-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x4 : Shape := ⟨2, ![4000000, 4]⟩
abbrev S4000000x3 : Shape := ⟨2, ![4000000, 3]⟩
abbrev S_ : Shape := ⟨0, ![]⟩
abbrev S4000000 : Shape := ⟨1, ![4000000]⟩

class Facts : Prop where
  bcast_S_S4000000x4 : S_.BroadcastsInDim S4000000x4 (![] : Fin 0 → Fin S4000000x4.rank)
  reducesTo_S4000000x4_S_d0_1 : S4000000x4.ReducesTo [0, 1] S_
  h_S_ : 0 < S_.numel
  bcast_S_S4000000x3 : S_.BroadcastsInDim S4000000x3 (![] : Fin 0 → Fin S4000000x3.rank)
  reducesTo_S4000000x3_S_d0_1 : S4000000x3.ReducesTo [0, 1] S_
  reducesTo_S4000000x4_S4000000_d1 : S4000000x4.ReducesTo [1] S4000000
  bcast_S_S4000000 : S_.BroadcastsInDim S4000000 (![] : Fin 0 → Fin S4000000.rank)
  reducesTo_S4000000_S_d0 : S4000000.ReducesTo [0] S_

variable [Facts]

def fn {F : FTy → Type} [FloatOps F] (main_arg0 : FVec F S4000000x4 .f32) (main_arg1 : FVec F S4000000x3 .f32) : IVec S_ 1 :=
  let main_v0 : FVec F S4000000x4 .f32 := Host.absf main_arg0
  let main_cst : FVec F S_ .f32 := constant S_ .f32 0x7F800000#32
  let main_v1 : FVec F S4000000x4 .f32 := broadcastInDim S4000000x4 ![] bcast_S_S4000000x4 main_cst
  let main_v2 : IVec S4000000x4 1 := cmpf .olt main_v0 main_v1
  let main_c : IVec S_ 1 := constantI S_ 1 1#1
  let main_v3 : IVec S_ 1 := (fun x v => Host.reduce IntOp.andi x v reducesTo_S4000000x4_S_d0_1 h_S_) main_v2 main_c
  let main_v4 : FVec F S4000000x3 .f32 := Host.absf main_arg1
  let main_cst_0 : FVec F S_ .f32 := constant S_ .f32 0x7F800000#32
  let main_v5 : FVec F S4000000x3 .f32 := broadcastInDim S4000000x3 ![] bcast_S_S4000000x3 main_cst_0
  let main_v6 : IVec S4000000x3 1 := cmpf .olt main_v4 main_v5
  let main_c_1 : IVec S_ 1 := constantI S_ 1 1#1
  let main_v7 : IVec S_ 1 := (fun x v => Host.reduce IntOp.andi x v reducesTo_S4000000x3_S_d0_1 h_S_) main_v6 main_c_1
  let main_v8 : IVec S_ 1 := andi main_v3 main_v7
  let main_v9 : FVec F S4000000x4 .f32 := mulf main_arg0 main_arg0
  let main_cst_2 : FVec F S_ .f32 := constant S_ .f32 0x00000000#32
  let main_v10 : FVec F S4000000 .f32 := (fun x v => Host.reduceAdd x v reducesTo_S4000000x4_S4000000_d1 h_S_) main_v9 main_cst_2
  let main_cst_3 : FVec F S_ .f32 := constant S_ .f32 0x00000000#32
  let main_v11 : FVec F S4000000 .f32 := broadcastInDim S4000000 ![] bcast_S_S4000000 main_cst_3
  let main_v12 : IVec S4000000 1 := cmpf .ogt main_v10 main_v11
  let main_c_4 : IVec S_ 1 := constantI S_ 1 1#1
  let main_v13 : IVec S_ 1 := (fun x v => Host.reduce IntOp.andi x v reducesTo_S4000000_S_d0 h_S_) main_v12 main_c_4
  let main_v14 : IVec S_ 1 := andi main_v8 main_v13
  main_v14
-- ==== Kernel.lean ====
abbrev S4000000x4 : Shape := ⟨2, ![4000000, 4]⟩
abbrev S4000000x3 : Shape := ⟨2, ![4000000, 3]⟩
abbrev S_ : Shape := ⟨0, ![]⟩
abbrev S4014080x4 : Shape := ⟨2, ![4014080, 4]⟩
abbrev S4014080x3 : Shape := ⟨2, ![4014080, 3]⟩
abbrev S4x4014080 : Shape := ⟨2, ![4, 4014080]⟩
abbrev S3x4014080 : Shape := ⟨2, ![3, 4014080]⟩
abbrev S4x31360x128 : Shape := ⟨3, ![4, 31360, 128]⟩
abbrev S3x31360x128 : Shape := ⟨3, ![3, 31360, 128]⟩
abbrev S4014080x9 : Shape := ⟨2, ![4014080, 9]⟩
abbrev S4x160x128 : Shape := ⟨3, ![4, 160, 128]⟩
abbrev S3x160x128 : Shape := ⟨3, ![3, 160, 128]⟩
abbrev S20480x9 : Shape := ⟨2, ![20480, 9]⟩
abbrev S1x160x128 : Shape := ⟨3, ![1, 160, 128]⟩
abbrev S160x128 : Shape := ⟨2, ![160, 128]⟩
abbrev S20480 : Shape := ⟨1, ![20480]⟩
abbrev S1x20480 : Shape := ⟨2, ![1, 20480]⟩
abbrev S9x20480 : Shape := ⟨2, ![9, 20480]⟩
abbrev S4000000x9 : Shape := ⟨2, ![4000000, 9]⟩
abbrev S4000000x3x3 : Shape := ⟨3, ![4000000, 3, 3]⟩

abbrev nBuf : Space → Nat
  | .hbm => 15
  | .vmem => 6
  | .smem => 0
  | _ => 0

abbrev bufTy : (tb : Table) → Fin (tcTables nBuf tb) → BufTy
  | .hbm, ⟨0, _⟩ => ⟨S4000000x4, .f32⟩
  | .hbm, ⟨1, _⟩ => ⟨S4000000x3, .f32⟩
  | .hbm, ⟨2, _⟩ => ⟨S_, .i32⟩
  | .hbm, ⟨3, _⟩ => ⟨S_, .f32⟩
  | .hbm, ⟨4, _⟩ => ⟨S4014080x4, .f32⟩
  | .hbm, ⟨5, _⟩ => ⟨S_, .i32⟩
  | .hbm, ⟨6, _⟩ => ⟨S_, .f32⟩
  | .hbm, ⟨7, _⟩ => ⟨S4014080x3, .f32⟩
  | .hbm, ⟨8, _⟩ => ⟨S4x4014080, .f32⟩
  | .hbm, ⟨9, _⟩ => ⟨S3x4014080, .f32⟩
  | .hbm, ⟨10, _⟩ => ⟨S4x31360x128, .f32⟩
  | .hbm, ⟨11, _⟩ => ⟨S3x31360x128, .f32⟩
  | .hbm, ⟨12, _⟩ => ⟨S4014080x9, .f32⟩
  | .hbm, ⟨13, _⟩ => ⟨S4000000x9, .f32⟩
  | .hbm, ⟨14, _⟩ => ⟨S4000000x3x3, .f32⟩
  | .local _ .vmem, ⟨0, _⟩ => ⟨S4x160x128, .f32⟩
  | .local _ .vmem, ⟨1, _⟩ => ⟨S4x160x128, .f32⟩
  | .local _ .vmem, ⟨2, _⟩ => ⟨S3x160x128, .f32⟩
  | .local _ .vmem, ⟨3, _⟩ => ⟨S3x160x128, .f32⟩
  | .local _ .vmem, ⟨4, _⟩ => ⟨S20480x9, .f32⟩
  | .local _ .vmem, ⟨5, _⟩ => ⟨S20480x9, .f32⟩
  | _, _ => ⟨S4000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![196], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x160x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x160x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20480x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S4000000x4_S4014080x4_0140800_000 : S4000000x4.Pads (![0, 0] : Fin 2 → Nat) ![14080, 0] ![0, 0] S4014080x4
  h_S_ : 0 < S_.numel
  pads_S4000000x3_S4014080x3_0140800_000 : S4000000x3.Pads (![0, 0] : Fin 2 → Nat) ![14080, 0] ![0, 0] S4014080x3
  transposes_S4014080x4_S4x4014080_1_0 : S4014080x4.Transposes [1, 0] S4x4014080
  transposes_S4014080x3_S3x4014080_1_0 : S4014080x3.Transposes [1, 0] S3x4014080
  shapeCasts_S4x4014080_S4x31360x128 : S4x4014080.ShapeCasts S4x31360x128
  shapeCasts_S3x4014080_S3x31360x128 : S3x4014080.ShapeCasts S3x31360x128
  inb_S4x160x128_S4x160x128_0_0_0 : ∀ a, (![0, 0, 0] : Fin 3 → Nat) a + S4x160x128.size a ≤ S4x160x128.size a
  h_S4x160x128 : 0 < S4x160x128.numel
  shapeCasts_S4x160x128_S4x160x128 : S4x160x128.ShapeCasts S4x160x128
  slices_S4x160x128_o0_0_0_S1x160x128 : S4x160x128.Slices ![0, 0, 0] S1x160x128
  shapeCasts_S1x160x128_S160x128 : S1x160x128.ShapeCasts S160x128
  slices_S4x160x128_o1_0_0_S1x160x128 : S4x160x128.Slices ![1, 0, 0] S1x160x128
  slices_S4x160x128_o2_0_0_S1x160x128 : S4x160x128.Slices ![2, 0, 0] S1x160x128
  slices_S4x160x128_o3_0_0_S1x160x128 : S4x160x128.Slices ![3, 0, 0] S1x160x128
  inb_S3x160x128_S3x160x128_0_0_0 : ∀ a, (![0, 0, 0] : Fin 3 → Nat) a + S3x160x128.size a ≤ S3x160x128.size a
  h_S3x160x128 : 0 < S3x160x128.numel
  shapeCasts_S3x160x128_S3x160x128 : S3x160x128.ShapeCasts S3x160x128
  slices_S3x160x128_o0_0_0_S1x160x128 : S3x160x128.Slices ![0, 0, 0] S1x160x128
  slices_S3x160x128_o1_0_0_S1x160x128 : S3x160x128.Slices ![1, 0, 0] S1x160x128
  slices_S3x160x128_o2_0_0_S1x160x128 : S3x160x128.Slices ![2, 0, 0] S1x160x128
  shapeCasts_S160x128_S20480 : S160x128.ShapeCasts S20480
  shapeCasts_S20480_S1x20480 : S20480.ShapeCasts S1x20480
  concatenates_S1x20480_S1x20480_S1x20480_S1x20480_S1x20480_S1x20480_S1x20480_S1x20480_S1x20480_S9x20480_d0 : Shape.Concatenates [S1x20480, S1x20480, S1x20480, S1x20480, S1x20480, S1x20480, S1x20480, S1x20480, S1x20480] S9x20480 0
  transposes_S9x20480_p1_0_S20480x9 : S9x20480.Transposes [1, 0] S20480x9
  inb_S20480x9_S20480x9_0_0 : ∀ a, (![0, 0] : Fin 2 → Nat) a + S20480x9.size a ≤ S20480x9.size a
  h_S20480x9 : 0 < S20480x9.numel
  slices_S4014080x9_S4000000x9_0_0 : S4014080x9.Slices ![0, 0] S4000000x9
  shapeCasts_S4000000x9_S4000000x3x3 : S4000000x9.ShapeCasts S4000000x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x160x128.size a ≤ S4x31360x128.size a
  hwx0_0 : ∀ i : grid0.Coords, EltTy.bits .f32 = 32 ∨ (Rect.block (s := S4x31360x128) S4x160x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x160x128.size a ≤ S3x31360x128.size a
  hwx0_1 : ∀ i : grid0.Coords, EltTy.bits .f32 = 32 ∨ (Rect.block (s := S3x31360x128) S3x160x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20480x9.size a ≤ S4014080x9.size a
  hwx0_2 : ∀ i : grid0.Coords, EltTy.bits .f32 = 32 ∨ (Rect.block (s := S4014080x9) S20480x9.size (cc0_transform_2 i) (hinb0_2 i)).WholeWords (EltTy.packing .f32)

variable [Facts₀]

abbrev win0_0 : Pipeline.Window sig grid0 :=
  Pipeline.Window.ofSpec (Memref.whole main_v4) S4x160x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S3x160x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S20480x9.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x4 : Shape := ⟨2, ![4000000, 4]⟩
abbrev S4000000x3 : Shape := ⟨2, ![4000000, 3]⟩
abbrev S_ : Shape := ⟨0, ![]⟩
abbrev S4000000 : Shape := ⟨1, ![4000000]⟩
abbrev S4000000x1 : Shape := ⟨2, ![4000000, 1]⟩
abbrev S4000000x9 : Shape := ⟨2, ![4000000, 9]⟩
abbrev S4000000x3x3 : Shape := ⟨3, ![4000000, 3, 3]⟩
abbrev S4000000x1x3 : Shape := ⟨3, ![4000000, 1, 3]⟩

abbrev nBuf : Space → Nat
  | .hbm => 87
  | .vmem => 0
  | .smem => 0
  | _ => 0

abbrev bufTy : (tb : Table) → Fin (tcTables nBuf tb) → BufTy
  | .hbm, ⟨0, _⟩ => ⟨S4000000x4, .f32⟩
  | .hbm, ⟨1, _⟩ => ⟨S4000000x3, .f32⟩
  | .hbm, ⟨2, _⟩ => ⟨S4000000x4, .f32⟩
  | .hbm, ⟨3, _⟩ => ⟨S_, .f32⟩
  | .hbm, ⟨4, _⟩ => ⟨S4000000, .f32⟩
  | .hbm, ⟨5, _⟩ => ⟨S4000000x1, .f32⟩
  | .hbm, ⟨6, _⟩ => ⟨S4000000x1, .f32⟩
  | .hbm, ⟨7, _⟩ => ⟨S4000000x4, .f32⟩
  | .hbm, ⟨8, _⟩ => ⟨S4000000x4, .f32⟩
  | .hbm, ⟨9, _⟩ => ⟨S4000000x1, .f32⟩
  | .hbm, ⟨10, _⟩ => ⟨S4000000, .f32⟩
  | .hbm, ⟨11, _⟩ => ⟨S4000000x1, .f32⟩
  | .hbm, ⟨12, _⟩ => ⟨S4000000, .f32⟩
  | .hbm, ⟨13, _⟩ => ⟨S4000000x1, .f32⟩
  | .hbm, ⟨14, _⟩ => ⟨S4000000, .f32⟩
  | .hbm, ⟨15, _⟩ => ⟨S4000000x1, .f32⟩
  | .hbm, ⟨16, _⟩ => ⟨S4000000, .f32⟩
  | .hbm, ⟨17, _⟩ => ⟨S4000000, .f32⟩
  | .hbm, ⟨18, _⟩ => ⟨S4000000, .f32⟩
  | .hbm, ⟨19, _⟩ => ⟨S4000000, .f32⟩
  | .hbm, ⟨20, _⟩ => ⟨S4000000, .f32⟩
  | .hbm, ⟨21, _⟩ => ⟨S4000000, .f32⟩
  | .hbm, ⟨22, _⟩ => ⟨S4000000, .f32⟩
  | .hbm, ⟨23, _⟩ => ⟨S4000000, .f32⟩
  | .hbm, ⟨24, _⟩ => ⟨S4000000, .f32⟩
  | .hbm, ⟨25, _⟩ => ⟨S4000000, .f32⟩
  | .hbm, ⟨26, _⟩ => ⟨S4000000, .f32⟩
  | .hbm, ⟨27, _⟩ => ⟨S_, .f32⟩
  | .hbm, ⟨28, _⟩ => ⟨S4000000, .f32⟩
  | .hbm, ⟨29, _⟩ => ⟨S4000000, .f32⟩
  | .hbm, ⟨30, _⟩ => ⟨S_, .f32⟩
  | .hbm, ⟨31, _⟩ => ⟨S4000000, .f32⟩
  | .hbm, ⟨32, _⟩ => ⟨S4000000, .f32⟩
  | .hbm, ⟨33, _⟩ => ⟨S4000000, .f32⟩
  | .hbm, ⟨34, _⟩ => ⟨S_, .f32⟩
  | .hbm, ⟨35, _⟩ => ⟨S4000000, .f32⟩
  | .hbm, ⟨36, _⟩ => ⟨S4000000, .f32⟩
  | .hbm, ⟨37, _⟩ => ⟨S4000000, .f32⟩
  | .hbm, ⟨38, _⟩ => ⟨S_, .f32⟩
  | .hbm, ⟨39, _⟩ => ⟨S4000000, .f32⟩
  | .hbm, ⟨40, _⟩ => ⟨S4000000, .f32⟩
  | .hbm, ⟨41, _⟩ => ⟨S4000000, .f32⟩
  | .hbm, ⟨42, _⟩ => ⟨S_, .f32⟩
  | .hbm, ⟨43, _⟩ => ⟨S4000000, .f32⟩
  | .hbm, ⟨44, _⟩ => ⟨S4000000, .f32⟩
  | .hbm, ⟨45, _⟩ => ⟨S4000000, .f32⟩
  | .hbm, ⟨46, _⟩ => ⟨S_, .f32⟩
  | .hbm, ⟨47, _⟩ => ⟨S4000000, .f32⟩
  | .hbm, ⟨48, _⟩ => ⟨S4000000, .f32⟩
  | .hbm, ⟨49, _⟩ => ⟨S_, .f32⟩
  | .hbm, ⟨50, _⟩ => ⟨S4000000, .f32⟩
  | .hbm, ⟨51, _⟩ => ⟨S4000000, .f32⟩
  | .hbm, ⟨52, _⟩ => ⟨S4000000, .f32⟩
  | .hbm, ⟨53, _⟩ => ⟨S_, .f32⟩
  | .hbm, ⟨54, _⟩ => ⟨S4000000, .f32⟩
  | .hbm, ⟨55, _⟩ => ⟨S4000000, .f32⟩
  | .hbm, ⟨56, _⟩ => ⟨S4000000, .f32⟩
  | .hbm, ⟨57, _⟩ => ⟨S_, .f32⟩
  | .hbm, ⟨58, _⟩ => ⟨S4000000, .f32⟩
  | .hbm, ⟨59, _⟩ => ⟨S4000000, .f32⟩
  | .hbm, ⟨60, _⟩ => ⟨S4000000, .f32⟩
  | .hbm, ⟨61, _⟩ => ⟨S_, .f32⟩
  | .hbm, ⟨62, _⟩ => ⟨S4000000, .f32⟩
  | .hbm, ⟨63, _⟩ => ⟨S4000000, .f32⟩
  | .hbm, ⟨64, _⟩ => ⟨S4000000, .f32⟩
  | .hbm, ⟨65, _⟩ => ⟨S_, .f32⟩
  | .hbm, ⟨66, _⟩ => ⟨S4000000, .f32⟩
  | .hbm, ⟨67, _⟩ => ⟨S4000000, .f32⟩
  | .hbm, ⟨68, _⟩ => ⟨S_, .f32⟩
  | .hbm, ⟨69, _⟩ => ⟨S4000000, .f32⟩
  | .hbm, ⟨70, _⟩ => ⟨S4000000, .f32⟩
  | .hbm, ⟨71, _⟩ => ⟨S4000000x1, .f32⟩
  | .hbm, ⟨72, _⟩ => ⟨S4000000x1, .f32⟩
  | .hbm, ⟨73, _⟩ => ⟨S4000000x1, .f32⟩
  | .hbm, ⟨74, _⟩ => ⟨S4000000x1, .f32⟩
  | .hbm, ⟨75, _⟩ => ⟨S4000000x1, .f32⟩
  | .hbm, ⟨76, _⟩ => ⟨S4000000x1, .f32⟩
  | .hbm, ⟨77, _⟩ => ⟨S4000000x1, .f32⟩
  | .hbm, ⟨78, _⟩ => ⟨S4000000x1, .f32⟩
  | .hbm, ⟨79, _⟩ => ⟨S4000000x1, .f32⟩
  | .hbm, ⟨80, _⟩ => ⟨S4000000x9, .f32⟩
  | .hbm, ⟨81, _⟩ => ⟨S4000000x3x3, .f32⟩
  | .hbm, ⟨82, _⟩ => ⟨S4000000x3, .f32⟩
  | .hbm, ⟨83, _⟩ => ⟨S4000000x1x3, .f32⟩
  | .hbm, ⟨84, _⟩ => ⟨S4000000x3x3, .f32⟩
  | .hbm, ⟨85, _⟩ => ⟨S4000000x3x3, .f32⟩
  | .hbm, ⟨86, _⟩ => ⟨S4000000x3x3, .f32⟩
  | _, _ => ⟨S4000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]

class Facts₀ : Prop where
  reducesTo_S4000000x4_S4000000_d1 : S4000000x4.ReducesTo [1] S4000000
  h_S_ : 0 < S_.numel
  bcast_S4000000_S4000000x1_0 : S4000000.BroadcastsInDim S4000000x1 (![0] : Fin 1 → Fin S4000000x1.rank)
  bcast_S4000000x1_S4000000x4_0_1 : S4000000x1.BroadcastsInDim S4000000x4 (![0, 1] : Fin 2 → Fin S4000000x4.rank)
  slices_S4000000x4_S4000000x1_0_0 : S4000000x4.Slices ![0, 0] S4000000x1
  shapeCasts_S4000000x1_S4000000 : S4000000x1.ShapeCasts S4000000
  slices_S4000000x4_S4000000x1_0_1 : S4000000x4.Slices ![0, 1] S4000000x1
  slices_S4000000x4_S4000000x1_0_2 : S4000000x4.Slices ![0, 2] S4000000x1
  slices_S4000000x4_S4000000x1_0_3 : S4000000x4.Slices ![0, 3] S4000000x1
  bcast_S_S4000000 : S_.BroadcastsInDim S4000000 (![] : Fin 0 → Fin S4000000.rank)
  concatenates_S4000000x1_S4000000x1_S4000000x1_S4000000x1_S4000000x1_S4000000x1_S4000000x1_S4000000x1_S4000000x1_S4000000x9_d1 : Shape.Concatenates [S4000000x1, S4000000x1, S4000000x1, S4000000x1, S4000000x1, S4000000x1, S4000000x1, S4000000x1, S4000000x1] S4000000x9 1
  shapeCasts_S4000000x9_S4000000x3x3 : S4000000x9.ShapeCasts S4000000x3x3
  bcast_S4000000x3_S4000000x1x3_0_2 : S4000000x3.BroadcastsInDim S4000000x1x3 (![0, 2] : Fin 2 → Fin S4000000x1x3.rank)
  bcast_S4000000x1x3_S4000000x3x3_0_1_2 : S4000000x1x3.BroadcastsInDim S4000000x3x3 (![0, 1, 2] : Fin 3 → Fin S4000000x3x3.rank)
  dot_S4000000x3x3_S4000000x3x3_S4000000x3x3_2_2_1_1_0_0_wf : DotDims.WF S4000000x3x3 S4000000x3x3 S4000000x3x3 [2] [2] [1] [1] [0] [0]

variable [Facts₀]

def dot_S4000000x3x3_S4000000x3x3_S4000000x3x3_2_2_1_1_0_0 : DotDims S4000000x3x3 S4000000x3x3 S4000000x3x3 where
  lhsContracting := [2]
  rhsContracting := [2]
  lhsNonContracting := [1]
  rhsNonContracting := [1]
  lhsBatch := [0]
  rhsBatch := [0]
  wf := dot_S4000000x3x3_S4000000x3x3_S4000000x3x3_2_2_1_1_0_0_wf

class Facts : Prop extends Facts₀ where

variable [Facts]
-- ==== Proof.Covariance.lean ====
/-
  One Gaussian's covariance on the extended reals, as both programs spell it.

  A quaternion q = (q₀, q₁, q₂, q₃) is scaled to unit length, the unit quaternion (a, b, c, d) gives the
  rotation matrix R (`rot`), the log-scales s give the diagonal, and the covariance is
  Σᵢₖ = ∑ⱼ Rᵢⱼ · Rₖⱼ · exp(2 sⱼ).  One spelling multiplies q by the reciprocal square root of
  q₀² + q₁² + q₂² + q₃², takes exp(2 sⱼ) once, and stores the six entries on and above the diagonal,
  using each off-diagonal one twice (`kEntry`); the other divides q by the square root of the same sum,
  scales column j of R by exp(sⱼ) and multiplies that matrix by its transpose (`rCov`).

  They agree wherever q is real with a positive squared length (`entry_eq`):
  * x · (√n)⁻¹ = x / √n for a real x and a real n > 0 (`unit_eq`);
  * exp(2·x) = exp(x) · exp(x) for every extended real x, the infinities included (`exp_two_mul`);
  * (x·y)·(e·e) = (x·e)·(y·e) in any commutative monoid, and x·y = y·x for the mirrored entries.
  The rotation's entries are never opened: both spellings build them by one and the same expression.
-/
import Idealize.ShloMosaic.PureOps.Ideal
import Idealize.ShloMosaic.PureOps.Ideal.Laws

noncomputable section

open scoped BigOperators

namespace Cert.Covariance

open Idealize.ShloMosaic

/-- The words of 2.0, 1.0 and 0.0, as the extended reals they denote. -/
abbrev two : EReal := Ideal.ofBits .f32 0x40000000#32
abbrev one : EReal := Ideal.ofBits .f32 0x3F800000#32
abbrev zero : EReal := Ideal.ofBits .f32 0x00000000#32

/-- The word of 2.0 denotes the real number 2. -/
theorem two_eq : two = ((2 : ℝ) : EReal) := by
  simp [two, Ideal.ofBits, Ideal.ieee, -EReal.coe_mul]; norm_num

/-- Entry (i, j) of the rotation matrix of the unit quaternion (a, b, c, d). -/
def rot (a b c d : EReal) (i j : Fin 3) : EReal :=
  match i, j with
  | ⟨0, _⟩, ⟨0, _⟩ => one - two * (c * c + d * d)
  | ⟨0, _⟩, ⟨1, _⟩ => two * (b * c - a * d)
  | ⟨0, _⟩, ⟨2, _⟩ => two * (b * d + a * c)
  | ⟨1, _⟩, ⟨0, _⟩ => two * (b * c + a * d)
  | ⟨1, _⟩, ⟨1, _⟩ => one - two * (b * b + d * d)
  | ⟨1, _⟩, ⟨2, _⟩ => two * (c * d - a * b)
  | ⟨2, _⟩, ⟨0, _⟩ => two * (b * d - a * c)
  | ⟨2, _⟩, ⟨1, _⟩ => two * (c * d + a * b)
  | ⟨2, _⟩, ⟨2, _⟩ => one - two * (b * b + c * c)

/-! ## The spelling with a reciprocal square root -/

/-- The squared length, summed left to right. -/
def kNorm2 (q : Fin 4 → EReal) : EReal := q 0 * q 0 + q 1 * q 1 + q 2 * q 2 + q 3 * q 3
/-- Component k of the unit quaternion: q k times the reciprocal square root of the squared length. -/
def kUnit (q : Fin 4 → EReal) (k : Fin 4) : EReal := q k * Ideal.rsqrt (kNorm2 q)
/-- Its rotation matrix. -/
def kRot (q : Fin 4 → EReal) : Fin 3 → Fin 3 → EReal := rot (kUnit q 0) (kUnit q 1) (kUnit q 2) (kUnit q 3)
/-- ∑ⱼ Rᵢⱼ · Rₖⱼ · Eⱼ, the three terms added left to right. -/
def cov (R : Fin 3 → Fin 3 → EReal) (E : Fin 3 → EReal) (i k : Fin 3) : EReal :=
  R i 0 * R k 0 * E 0 + R i 1 * R k 1 * E 1 + R i 2 * R k 2 * E 2
/-- The nine stored entries, row-major: entry (i, k) is the covariance at (min i k, max i k). -/
def kEntry (q : Fin 4 → EReal) (s : Fin 3 → EReal) (t : Fin 9) : EReal :=
  match t with
  | ⟨0, _⟩ => cov (kRot q) (fun j => Ideal.exp (two * s j)) 0 0
  | ⟨1, _⟩ => cov (kRot q) (fun j => Ideal.exp (two * s j)) 0 1
  | ⟨2, _⟩ => cov (kRot q) (fun j => Ideal.exp (two * s j)) 0 2
  | ⟨3, _⟩ => cov (kRot q) (fun j => Ideal.exp (two * s j)) 0 1
  | ⟨4, _⟩ => cov (kRot q) (fun j => Ideal.exp (two * s j)) 1 1
  | ⟨5, _⟩ => cov (kRot q) (fun j => Ideal.exp (two * s j)) 1 2
  | ⟨6, _⟩ => cov (kRot q) (fun j => Ideal.exp (two * s j)) 0 2
  | ⟨7, _⟩ => cov (kRot q) (fun j => Ideal.exp (two * s j)) 1 2
  | ⟨8, _⟩ => cov (kRot q) (fun j => Ideal.exp (two * s j)) 2 2

/-! ## The spelling with a division and a matrix product -/

/-- The squared length as a sum over the four components, from zero. -/
def rNorm2 (q : Fin 4 → EReal) : EReal := zero + ∑ k : Fin 4, q k * q k
/-- Component k of the unit quaternion: q k divided by the length. -/
def rUnit (q : Fin 4 → EReal) (k : Fin 4) : EReal := Ideal.div (q k) (Ideal.sqrt (rNorm2 q))
/-- Its rotation matrix. -/
def rRot (q : Fin 4 → EReal) : Fin 3 → Fin 3 → EReal := rot (rUnit q 0) (rUnit q 1) (rUnit q 2) (rUnit q 3)
/-- (R · diag(exp s)) times its transpose, at (i, k). -/
def rCov (q : Fin 4 → EReal) (s : Fin 3 → EReal) (i k : Fin 3) : EReal :=
  ∑ j : Fin 3, (rRot q i j * Ideal.exp (s j)) * (rRot q k j * Ideal.exp (s j))

/-! ## The laws -/

/-- exp(2·x) = exp(x)·exp(x) on the extended reals: at −∞ both sides are 0, at +∞ both are +∞. -/
theorem exp_two_mul (x : EReal) : Ideal.exp (two * x) = Ideal.exp x * Ideal.exp x := by
  rw [two_eq]
  induction x using EReal.rec with
  | bot => rw [EReal.coe_mul_bot_of_pos (by norm_num)]; simp
  | coe r =>
    rw [← EReal.coe_mul, Ideal.exp_coe, Ideal.exp_coe, ← EReal.coe_mul, two_mul, Real.exp_add]
  | top => rw [EReal.coe_mul_top_of_pos (by norm_num)]; simp

/-- For a real quaternion of positive squared length the two unit quaternions are one:
    x · (√n)⁻¹ = x / √n. -/
theorem unit_eq (q : Fin 4 → ℝ) (h : 0 < rNorm2 fun k => (q k : EReal)) (k : Fin 4) :
    kUnit (fun k => (q k : EReal)) k = rUnit (fun k => (q k : EReal)) k := by
  have e1 : kNorm2 (fun k => (q k : EReal)) = ((q 0 * q 0 + q 1 * q 1 + q 2 * q 2 + q 3 * q 3 : ℝ) : EReal) := by
    simp only [kNorm2, EReal.coe_add, EReal.coe_mul]
  have e2 : rNorm2 (fun k => (q k : EReal)) = ((q 0 * q 0 + q 1 * q 1 + q 2 * q 2 + q 3 * q 3 : ℝ) : EReal) := by
    simp only [rNorm2, zero, Ideal.ofBits_zero_f32, zero_add, Fin.sum_univ_four, EReal.coe_add, EReal.coe_mul]
  have hn : (0 : ℝ) < q 0 * q 0 + q 1 * q 1 + q 2 * q 2 + q 3 * q 3 := by
    rw [e2] at h; exact_mod_cast h
  have hs : Real.sqrt (q 0 * q 0 + q 1 * q 1 + q 2 * q 2 + q 3 * q 3) ≠ 0 := (Real.sqrt_pos.2 hn).ne'
  unfold kUnit rUnit
  rw [e1, e2, Ideal.rsqrt_coe, Ideal.sqrt_coe, if_neg (not_lt.2 hn.le), if_neg hn.ne', if_neg (not_lt.2 hn.le),
    Ideal.div_coe hs, one_div]

/-- Swapping the two rows swaps the factors of each term. -/
theorem cov_symm (R : Fin 3 → Fin 3 → EReal) (E : Fin 3 → EReal) (i k : Fin 3) : cov R E i k = cov R E k i := by
  unfold cov
  rw [mul_comm (R i 0), mul_comm (R i 1), mul_comm (R i 2)]

/-- With Eⱼ = eⱼ·eⱼ each term Rᵢⱼ·Rₖⱼ·Eⱼ is (Rᵢⱼ·eⱼ)·(Rₖⱼ·eⱼ): the sum is the product of R·diag(e) with
    its transpose. -/
theorem cov_eq_sum (R : Fin 3 → Fin 3 → EReal) (e : Fin 3 → EReal) (i k : Fin 3) :
    cov R (fun j => e j * e j) i k = ∑ j : Fin 3, (R i j * e j) * (R k j * e j) := by
  unfold cov
  rw [Fin.sum_univ_three, mul_mul_mul_comm (R i 0), mul_mul_mul_comm (R i 1), mul_mul_mul_comm (R i 2)]

/-- THE LAW: for a real quaternion of positive squared length and any log-scales, stored entry 3i + k of the
    first spelling is entry (i, k) of the second. -/
theorem entry_eq (q : Fin 4 → ℝ) (h : 0 < rNorm2 fun k => (q k : EReal)) (s : Fin 3 → EReal) (i k : Fin 3) (t : Fin 9)
    (ht : t.val = 3 * i.val + k.val) :
    kEntry (fun k => (q k : EReal)) s t = rCov (fun k => (q k : EReal)) s i k := by
  have hR : kRot (fun k => (q k : EReal)) = rRot (fun k => (q k : EReal)) := by
    unfold kRot rRot; rw [unit_eq q h 0, unit_eq q h 1, unit_eq q h 2, unit_eq q h 3]
  have hE : (fun j => Ideal.exp (two * s j)) = fun j => Ideal.exp (s j) * Ideal.exp (s j) :=
    funext fun j => exp_two_mul (s j)
  unfold rCov
  rw [← cov_eq_sum (rRot _) (fun j => Ideal.exp (s j)) i k, ← hR, ← hE]
  match i, k, t, ht with
  | ⟨0, _⟩, ⟨0, _⟩, ⟨0, _⟩, _ => rfl
  | ⟨0, _⟩, ⟨1, _⟩, ⟨1, _⟩, _ => rfl
  | ⟨0, _⟩, ⟨2, _⟩, ⟨2, _⟩, _ => rfl
  | ⟨1, _⟩, ⟨0, _⟩, ⟨3, _⟩, _ => exact cov_symm (kRot fun k => (q k : EReal)) (fun j => Ideal.exp (two * s j)) 0 1
  | ⟨1, _⟩, ⟨1, _⟩, ⟨4, _⟩, _ => rfl
  | ⟨1, _⟩, ⟨2, _⟩, ⟨5, _⟩, _ => rfl
  | ⟨2, _⟩, ⟨0, _⟩, ⟨6, _⟩, _ => exact cov_symm (kRot fun k => (q k : EReal)) (fun j => Ideal.exp (two * s j)) 0 2
  | ⟨2, _⟩, ⟨1, _⟩, ⟨7, _⟩, _ => exact cov_symm (kRot fun k => (q k : EReal)) (fun j => Ideal.exp (two * s j)) 1 2
  | ⟨2, _⟩, ⟨2, _⟩, ⟨8, _⟩, _ => rfl

end Cert.Covariance

end
-- ==== Proof.RefRead.lean ====
/-
  The reference's result, read at one index.

  For Gaussian n the reference divides row n of the quaternions by its length (the square root of the sum of
  the four squares, summed from zero), builds the nine rotation entries from the four quotients, lays them
  side by side as a row of nine and views it as a 3×3 matrix, multiplies column j by exp of log-scale j, and
  contracts that matrix with itself over the column index.  Read stage by stage at explicit coordinates this
  is `Covariance.rCov` of row n of the two arguments (`result_apply`).
-/
import proofs.«127263_j54975581389340_2_alg».proof.Proof.Gen.ReferenceIdeal.Read
import proofs.«127263_j54975581389340_2_alg».proof.Proof.Covariance
import Idealize.ShloMosaic.Lib.ValueIdx
import Idealize.ShloMosaic.Lib.Pipeline.Value

noncomputable section

open scoped BigOperators

namespace Cert.ReferenceIdeal.RefValue

open Cert.ReferenceIdeal Cert.ReferenceIdeal.Read Cert.Covariance
open Idealize.ShloMosaic Idealize.ShloMosaic.ValueIdx

variable (x0 : (⟨S4000000x4, .f32⟩ : BufTy).Contents (Elt Ideal)) (x1 : (⟨S4000000x3, .f32⟩ : BufTy).Contents (Elt Ideal))

/-- Row n of the quaternions. -/
abbrev qrow (n : Fin 4000000) : Fin 4 → EReal := fun k => x0 (ix2 n k)
/-- Row n of the log-scales. -/
abbrev srow (n : Fin 4000000) : Fin 3 → EReal := fun j => x1 (ix2 n j)

/-- The quotient array at (n, k): component k of row n divided by the row's length. -/
theorem unit_apply (n : Fin 4000000) (k : Fin 4) : val_main_v2 (F := Ideal) x0 (ix2 n k) = rUnit (qrow x0 n) k := by
  have hidx : ∀ k' : Fin 4, idx_main_call0_v1 (idx_main_call0_v2 (idx_main_v1 (ix2 n k))) k' = ix2 n k' := fun k' =>
    funext fun a => Fin.ext (by match a with | ⟨0, _⟩ => rfl | ⟨1, _⟩ => rfl)
  rw [val_main_v2_apply, val_main_v1_apply, val_main_v0_apply, val_main_call0_v2_apply, val_main_call0_v1_apply]
  simp only [hidx, val_main_call0_v0_apply, val_main_call0_cst_apply, Ideal.mulf_def, Ideal.hostDivf_def,
    Ideal.hostUnary_sqrt_def, Ideal.ofBits_def]
  rfl

/-- The four columns of the quotient array, each cut out and viewed as a vector. -/
theorem col0_apply (n : Fin 4000000) : val_main_v4 (F := Ideal) x0 (ix1 n) = rUnit (qrow x0 n) 0 := by
  rw [val_main_v4_apply, val_main_v3_apply, ← unit_apply x0 n 0]
  exact congrArg _ (funext fun a => Fin.ext (by match a with | ⟨0, _⟩ => exact Nat.div_one _ | ⟨1, _⟩ => rfl))
theorem col1_apply (n : Fin 4000000) : val_main_v6 (F := Ideal) x0 (ix1 n) = rUnit (qrow x0 n) 1 := by
  rw [val_main_v6_apply, val_main_v5_apply, ← unit_apply x0 n 1]
  exact congrArg _ (funext fun a => Fin.ext (by match a with | ⟨0, _⟩ => exact Nat.div_one _ | ⟨1, _⟩ => rfl))
theorem col2_apply (n : Fin 4000000) : val_main_v8 (F := Ideal) x0 (ix1 n) = rUnit (qrow x0 n) 2 := by
  rw [val_main_v8_apply, val_main_v7_apply, ← unit_apply x0 n 2]
  exact congrArg _ (funext fun a => Fin.ext (by match a with | ⟨0, _⟩ => exact Nat.div_one _ | ⟨1, _⟩ => rfl))
theorem col3_apply (n : Fin 4000000) : val_main_v10 (F := Ideal) x0 (ix1 n) = rUnit (qrow x0 n) 3 := by
  rw [val_main_v10_apply, val_main_v9_apply, ← unit_apply x0 n 3]
  exact congrArg _ (funext fun a => Fin.ext (by match a with | ⟨0, _⟩ => exact Nat.div_one _ | ⟨1, _⟩ => rfl))

/-- The nine vectors that become the row of nine, in order. -/
def entries : Fin 9 → (S4000000x1.Idx → EReal) := fun t =>
  match t with
  | ⟨0, _⟩ => val_main_v53 (F := Ideal) x0 | ⟨1, _⟩ => val_main_v54 (F := Ideal) x0 | ⟨2, _⟩ => val_main_v55 (F := Ideal) x0
  | ⟨3, _⟩ => val_main_v56 (F := Ideal) x0 | ⟨4, _⟩ => val_main_v57 (F := Ideal) x0 | ⟨5, _⟩ => val_main_v58 (F := Ideal) x0
  | ⟨6, _⟩ => val_main_v59 (F := Ideal) x0 | ⟨7, _⟩ => val_main_v60 (F := Ideal) x0 | ⟨8, _⟩ => val_main_v61 (F := Ideal) x0

/-! The nine rotation entries as vectors over n: each is `rot` of the four columns at n, stage by stage. -/
theorem rot00_apply (n : Fin 4000000) :
    val_main_v24 (F := Ideal) x0 (ix1 n) = rot (val_main_v4 (F := Ideal) x0 (ix1 n)) (val_main_v6 (F := Ideal) x0 (ix1 n))
      (val_main_v8 (F := Ideal) x0 (ix1 n)) (val_main_v10 (F := Ideal) x0 (ix1 n)) 0 0 := by
  rw [val_main_v24_apply, val_main_v23_apply, val_main_v22_apply, val_main_v21_apply, val_main_v20_apply, val_main_v12_apply, val_main_v13_apply, val_main_cst_apply, val_main_cst_0_apply]
  rfl
theorem rot01_apply (n : Fin 4000000) :
    val_main_v27 (F := Ideal) x0 (ix1 n) = rot (val_main_v4 (F := Ideal) x0 (ix1 n)) (val_main_v6 (F := Ideal) x0 (ix1 n))
      (val_main_v8 (F := Ideal) x0 (ix1 n)) (val_main_v10 (F := Ideal) x0 (ix1 n)) 0 1 := by
  rw [val_main_v27_apply, val_main_v26_apply, val_main_v25_apply, val_main_v14_apply, val_main_v19_apply, val_main_cst_1_apply]
  rfl
theorem rot02_apply (n : Fin 4000000) :
    val_main_v30 (F := Ideal) x0 (ix1 n) = rot (val_main_v4 (F := Ideal) x0 (ix1 n)) (val_main_v6 (F := Ideal) x0 (ix1 n))
      (val_main_v8 (F := Ideal) x0 (ix1 n)) (val_main_v10 (F := Ideal) x0 (ix1 n)) 0 2 := by
  rw [val_main_v30_apply, val_main_v29_apply, val_main_v28_apply, val_main_v15_apply, val_main_v18_apply, val_main_cst_2_apply]
  rfl
theorem rot10_apply (n : Fin 4000000) :
    val_main_v33 (F := Ideal) x0 (ix1 n) = rot (val_main_v4 (F := Ideal) x0 (ix1 n)) (val_main_v6 (F := Ideal) x0 (ix1 n))
      (val_main_v8 (F := Ideal) x0 (ix1 n)) (val_main_v10 (F := Ideal) x0 (ix1 n)) 1 0 := by
  rw [val_main_v33_apply, val_main_v32_apply, val_main_v31_apply, val_main_v14_apply, val_main_v19_apply, val_main_cst_3_apply]
  rfl
theorem rot11_apply (n : Fin 4000000) :
    val_main_v38 (F := Ideal) x0 (ix1 n) = rot (val_main_v4 (F := Ideal) x0 (ix1 n)) (val_main_v6 (F := Ideal) x0 (ix1 n))
      (val_main_v8 (F := Ideal) x0 (ix1 n)) (val_main_v10 (F := Ideal) x0 (ix1 n)) 1 1 := by
  rw [val_main_v38_apply, val_main_v37_apply, val_main_v36_apply, val_main_v35_apply, val_main_v34_apply, val_main_v11_apply, val_main_v13_apply, val_main_cst_4_apply, val_main_cst_5_apply]
  rfl
theorem rot12_apply (n : Fin 4000000) :
    val_main_v41 (F := Ideal) x0 (ix1 n) = rot (val_main_v4 (F := Ideal) x0 (ix1 n)) (val_main_v6 (F := Ideal) x0 (ix1 n))
      (val_main_v8 (F := Ideal) x0 (ix1 n)) (val_main_v10 (F := Ideal) x0 (ix1 n)) 1 2 := by
  rw [val_main_v41_apply, val_main_v40_apply, val_main_v39_apply, val_main_v16_apply, val_main_v17_apply, val_main_cst_6_apply]
  rfl
theorem rot20_apply (n : Fin 4000000) :
    val_main_v44 (F := Ideal) x0 (ix1 n) = rot (val_main_v4 (F := Ideal) x0 (ix1 n)) (val_main_v6 (F := Ideal) x0 (ix1 n))
      (val_main_v8 (F := Ideal) x0 (ix1 n)) (val_main_v10 (F := Ideal) x0 (ix1 n)) 2 0 := by
  rw [val_main_v44_apply, val_main_v43_apply, val_main_v42_apply, val_main_v15_apply, val_main_v18_apply, val_main_cst_7_apply]
  rfl
theorem rot21_apply (n : Fin 4000000) :
    val_main_v47 (F := Ideal) x0 (ix1 n) = rot (val_main_v4 (F := Ideal) x0 (ix1 n)) (val_main_v6 (F := Ideal) x0 (ix1 n))
      (val_main_v8 (F := Ideal) x0 (ix1 n)) (val_main_v10 (F := Ideal) x0 (ix1 n)) 2 1 := by
  rw [val_main_v47_apply, val_main_v46_apply, val_main_v45_apply, val_main_v16_apply, val_main_v17_apply, val_main_cst_8_apply]
  rfl
theorem rot22_apply (n : Fin 4000000) :
    val_main_v52 (F := Ideal) x0 (ix1 n) = rot (val_main_v4 (F := Ideal) x0 (ix1 n)) (val_main_v6 (F := Ideal) x0 (ix1 n))
      (val_main_v8 (F := Ideal) x0 (ix1 n)) (val_main_v10 (F := Ideal) x0 (ix1 n)) 2 2 := by
  rw [val_main_v52_apply, val_main_v51_apply, val_main_v50_apply, val_main_v49_apply, val_main_v48_apply, val_main_v11_apply, val_main_v12_apply, val_main_cst_9_apply, val_main_cst_10_apply]
  rfl

/-- A vector viewed as a column of width one, read at (n, 0), is the vector at n. -/
theorem col_idx (n : Fin 4000000) (u : Fin 1) : idx_main_v53 (ix2 n u) = ix1 n :=
  funext fun a => Fin.ext (by match a with | ⟨0, _⟩ => rfl)

/-- Entry (i, j) of the rotation of row n's unit quaternion is vector 3i + j at n. -/
theorem entries_apply (n : Fin 4000000) (i j : Fin 3) (t : Fin 9) (ht : t.val = 3 * i.val + j.val) (u : Fin 1) :
    entries x0 t (ix2 n u) = rRot (qrow x0 n) i j := by
  unfold rRot
  rw [← col0_apply x0 n, ← col1_apply x0 n, ← col2_apply x0 n, ← col3_apply x0 n]
  match i, j, t, ht with
  | ⟨0, _⟩, ⟨0, _⟩, ⟨0, _⟩, _ => exact (val_main_v53_apply x0 _).trans ((congrArg _ (col_idx n u)).trans (rot00_apply x0 n))
  | ⟨0, _⟩, ⟨1, _⟩, ⟨1, _⟩, _ => exact (val_main_v54_apply x0 _).trans ((congrArg _ (col_idx n u)).trans (rot01_apply x0 n))
  | ⟨0, _⟩, ⟨2, _⟩, ⟨2, _⟩, _ => exact (val_main_v55_apply x0 _).trans ((congrArg _ (col_idx n u)).trans (rot02_apply x0 n))
  | ⟨1, _⟩, ⟨0, _⟩, ⟨3, _⟩, _ => exact (val_main_v56_apply x0 _).trans ((congrArg _ (col_idx n u)).trans (rot10_apply x0 n))
  | ⟨1, _⟩, ⟨1, _⟩, ⟨4, _⟩, _ => exact (val_main_v57_apply x0 _).trans ((congrArg _ (col_idx n u)).trans (rot11_apply x0 n))
  | ⟨1, _⟩, ⟨2, _⟩, ⟨5, _⟩, _ => exact (val_main_v58_apply x0 _).trans ((congrArg _ (col_idx n u)).trans (rot12_apply x0 n))
  | ⟨2, _⟩, ⟨0, _⟩, ⟨6, _⟩, _ => exact (val_main_v59_apply x0 _).trans ((congrArg _ (col_idx n u)).trans (rot20_apply x0 n))
  | ⟨2, _⟩, ⟨1, _⟩, ⟨7, _⟩, _ => exact (val_main_v60_apply x0 _).trans ((congrArg _ (col_idx n u)).trans (rot21_apply x0 n))
  | ⟨2, _⟩, ⟨2, _⟩, ⟨8, _⟩, _ => exact (val_main_v61_apply x0 _).trans ((congrArg _ (col_idx n u)).trans (rot22_apply x0 n))

/-- The row of nine at (n, t) is vector t at (n, 0): each joined piece has width one. -/
theorem row9_apply (n : Fin 4000000) (t : Fin 9) :
    val_main_v62 (F := Ideal) x0 (ix2 n t) = entries x0 t (ix2 n (0 : Fin 1)) := by
  unfold val_main_v62
  exact concatenate_ofFn_unit_apply (t := S4000000x9) (s₁ := S4000000x1) (1 : Fin 2) (entries x0) _ rfl rfl (ix2 n t) t rfl
    (ix2 n (0 : Fin 1)) (fun d hd => by
      match d with
      | ⟨0, _⟩ => rfl
      | ⟨1, _⟩ => exact absurd rfl hd)

/-- The row of nine viewed as a 3×3 matrix: entry (i, j) is the rotation entry (i, j) of row n. -/
theorem mat_apply (n : Fin 4000000) (i j : Fin 3) :
    val_main_v63 (F := Ideal) x0 (ix3 n i j) = rRot (qrow x0 n) i j := by
  have hi := i.isLt
  have hj := j.isLt
  have hidx : idx_main_v63 (ix3 n i j) = ix2 n (⟨3 * i.val + j.val, by omega⟩ : Fin 9) := funext fun a => Fin.ext (by
    match a with
    | ⟨0, _⟩ => show ((n.val * 3 + i.val) * 3 + j.val) / 9 = n.val; omega
    | ⟨1, _⟩ => show ((n.val * 3 + i.val) * 3 + j.val) % 9 = 3 * i.val + j.val; omega)
  rw [val_main_v63_apply, hidx, row9_apply]
  exact entries_apply x0 n i j _ rfl 0

/-- Column j scaled by exp of log-scale j. -/
theorem scaled_apply (n : Fin 4000000) (i j : Fin 3) :
    val_main_v67 (F := Ideal) x0 x1 (ix3 n i j) = rRot (qrow x0 n) i j * Ideal.exp (srow x1 n j) := by
  have hidx : idx_main_v65 (idx_main_v66 (ix3 n i j)) = ix2 n j := funext fun a => Fin.ext (by
    match a with
    | ⟨0, _⟩ => rfl
    | ⟨1, _⟩ => rfl)
  rw [val_main_v67_apply, mat_apply, val_main_v66_apply, val_main_v65_apply, val_main_v64_apply, hidx]
  rfl

/-- THE REFERENCE'S RESULT at (n, i, k): the scaled matrix of row n contracted with itself over its columns. -/
theorem result_apply (n : Fin 4000000) (i k : Fin 3) :
    val_main_v68 (F := Ideal) x0 x1 (ix3 n i k) = rCov (qrow x0 n) (srow x1 n) i k := by
  rw [val_main_v68_apply]
  unfold rCov
  refine Finset.sum_congr rfl fun j _ => ?_
  have hl : lidx_main_v68 (ix3 n i k) j = ix3 n i j := funext fun a => Fin.ext (by
    match a with
    | ⟨0, _⟩ => rfl
    | ⟨1, _⟩ => rfl
    | ⟨2, _⟩ => rfl)
  have hr : ridx_main_v68 (ix3 n i k) j = ix3 n k j := funext fun a => Fin.ext (by
    match a with
    | ⟨0, _⟩ => rfl
    | ⟨1, _⟩ => rfl
    | ⟨2, _⟩ => rfl)
  rw [hl, hr, scaled_apply, scaled_apply]

end Cert.ReferenceIdeal.RefValue

end
-- ==== Proof.LibStackedTiles.lean ====
/-
  A stack of flattened tiles, transposed, read at an index.

  N tiles of shape [a, b] are each flattened to a vector [c] (c = a·b, row-major), given a leading unit axis
  [1, c], joined along that axis into [N, c], and transposed to [c, N].  Entry (j, n) of the result is tile n at
  (r, l), where j = r·b + l: the transpose swaps the coordinates, the join picks tile n (each piece has extent one
  on the joined axis), the unit axis is dropped, and the flattening puts (r, l) at row-major position r·b + l.
  Mathlib and the library's layout lemmas only; any element type.
-/
import Idealize.ShloMosaic.Lib.ValueIdx
import Idealize.ShloMosaic.Lib.ValueLayout
import Idealize.ShloMosaic.Lib.Pipeline.Value

noncomputable section

namespace Idealize.ShloMosaic.StackedTiles

open Idealize.ShloMosaic Idealize.ShloMosaic.ValueIdx

variable {α : Type}

/-- Entry (j, n) of the transposed stack of the flattened tiles `g 0 … g (N-1)` is tile n at (r, l) when
    j = r·b + l. -/
theorem stackedTiles_apply {N a b c : ℕ} (g : Fin N → ((⟨2, ![a, b]⟩ : Shape).Idx → α))
    (h1 : (⟨2, ![a, b]⟩ : Shape).ShapeCasts ⟨1, ![c]⟩) (h2 : (⟨1, ![c]⟩ : Shape).ShapeCasts ⟨2, ![1, c]⟩)
    (hc : Shape.Concatenates ((List.ofFn fun t : Fin N =>
      (⟨⟨2, ![1, c]⟩, shapeCast ⟨2, ![1, c]⟩ (shapeCast ⟨1, ![c]⟩ (g t) h1) h2⟩ : (s : Shape) × (s.Idx → α))).map (·.1))
      ⟨2, ![N, c]⟩ (0 : Fin 2))
    (ht : (⟨2, ![N, c]⟩ : Shape).Transposes [1, 0] ⟨2, ![c, N]⟩)
    (r : Fin a) (l : Fin b) (j : Fin c) (hj : j.val = r.val * b + l.val) (n : Fin N) :
    transpose ⟨2, ![c, N]⟩ [1, 0]
      (concatenate ⟨2, ![N, c]⟩ (0 : Fin 2) (List.ofFn fun t : Fin N =>
        (⟨⟨2, ![1, c]⟩, shapeCast ⟨2, ![1, c]⟩ (shapeCast ⟨1, ![c]⟩ (g t) h1) h2⟩ : (s : Shape) × (s.Idx → α))) hc)
      ht (ix2 j n) = g n (ix2 r l) := by
  refine (transpose_ix2_apply _ ht j n).trans ?_
  refine (concatenate_ofFn_unit_apply (t := ⟨2, ![N, c]⟩) (s₁ := ⟨2, ![1, c]⟩) (0 : Fin 2)
    (fun t : Fin N => shapeCast ⟨2, ![1, c]⟩ (shapeCast ⟨1, ![c]⟩ (g t) h1) h2) hc rfl rfl (ix2 n j) n rfl
    (ix2 (0 : Fin 1) j) (fun d hd => ?_)).trans ?_
  · match d with
    | ⟨0, _⟩ => exact absurd rfl hd
    | ⟨1, _⟩ => rfl
  · refine (shapeCast_a_1a_apply _ h2 (0 : Fin 1) j).trans ?_
    exact shapeCast_apply _ h1 (ix1 j) (ix2 r l) (by
      rw [Shape.rowMajor_val_two, Shape.rowMajor_val_one]
      show r.val * b + l.val = j.val
      omega)

end Idealize.ShloMosaic.StackedTiles

end
-- ==== Proof.KernelBody.lean ====
/-
  The kernel body's stored block, read at one entry.

  A grid point loads a [4, 160, 128] block of quaternion components and a [3, 160, 128] block of log-scales:
  lane (r, l) of plane k is component k of one Gaussian.  Everything up to the six covariance entries is
  pointwise in (r, l); the nine stored entries (the off-diagonal ones twice) are then flattened, stacked and
  transposed into a [20480, 9] block.  Entry (j, t) of that block, j = 128·r + l, is `Covariance.kEntry` of
  the Gaussian at lane (r, l), at t (`block_apply`).
-/
import proofs.«127263_j54975581389340_2_alg».proof.Proof.Gen.KernelIdeal.Frame
import proofs.«127263_j54975581389340_2_alg».proof.Proof.Covariance
import proofs.«127263_j54975581389340_2_alg».proof.Proof.LibStackedTiles
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Cert.KernelIdeal.Facts Cert.Covariance
open Idealize.ShloMosaic Idealize.ShloMosaic.ValueIdx Idealize.ShloMosaic.StackedTiles

/-- Plane k of a [m, a, b] array, cut out as [1, a, b] and viewed as [a, b], reads the array at (k, r, l). -/
theorem plane_apply {α : Type} {m a b : ℕ} (X : (⟨3, ![m, a, b]⟩ : Shape).Idx → α) (off : Fin 3 → ℕ)
    (hs : (⟨3, ![m, a, b]⟩ : Shape).Slices off ⟨3, ![1, a, b]⟩)
    (hc : (⟨3, ![1, a, b]⟩ : Shape).ShapeCasts ⟨2, ![a, b]⟩) (k : Fin m)
    (h0 : off 0 = k.val) (h1 : off 1 = 0) (h2 : off 2 = 0) (r : Fin a) (l : Fin b) :
    shapeCast ⟨2, ![a, b]⟩ (extractStridedSlice ⟨3, ![1, a, b]⟩ off X hs) hc (ix2 r l) = X (ix3 k r l) := by
  refine (shapeCast_1ab_ab_apply _ hc r l).trans ?_
  exact extractStridedSlice_apply off X hs (ix3 (0 : Fin 1) r l) (ix3 k r l) (fun d => by
    match d with
    | ⟨0, _⟩ => show k.val = off 0 + 0; omega
    | ⟨1, _⟩ => show r.val = off 1 + r.val; omega
    | ⟨2, _⟩ => show l.val = off 2 + l.val; omega)

variable (x0 : Vec Ideal S4x160x128 .f32) (x1 : Vec Ideal S3x160x128 .f32) (r : Fin 160) (l : Fin 128)

/-- The quaternion at lane (r, l) of the block. -/
abbrev qAt : Fin 4 → EReal := fun k => x0 (ix3 k r l)
/-- The log-scales at lane (r, l) of the block. -/
abbrev sAt : Fin 3 → EReal := fun j => x1 (ix3 j r l)

/-! ## The four components and the three scale factors at a lane -/

theorem q0_apply : k0_pay3 x0 (ix2 r l) = x0 (ix3 (0 : Fin 4) r l) :=
  (plane_apply (k0_pay2 x0) ![0, 0, 0] _ _ (0 : Fin 4) rfl rfl rfl r l).trans (congrFun (shapeCast_self x0 _) _)
theorem q1_apply : k0_pay4 x0 (ix2 r l) = x0 (ix3 (1 : Fin 4) r l) :=
  (plane_apply (k0_pay2 x0) ![1, 0, 0] _ _ (1 : Fin 4) rfl rfl rfl r l).trans (congrFun (shapeCast_self x0 _) _)
theorem q2_apply : k0_pay5 x0 (ix2 r l) = x0 (ix3 (2 : Fin 4) r l) :=
  (plane_apply (k0_pay2 x0) ![2, 0, 0] _ _ (2 : Fin 4) rfl rfl rfl r l).trans (congrFun (shapeCast_self x0 _) _)
theorem q3_apply : k0_pay6 x0 (ix2 r l) = x0 (ix3 (3 : Fin 4) r l) :=
  (plane_apply (k0_pay2 x0) ![3, 0, 0] _ _ (3 : Fin 4) rfl rfl rfl r l).trans (congrFun (shapeCast_self x0 _) _)

theorem e0_apply : k0_pay33 x1 (ix2 r l) = Ideal.exp (two * x1 (ix3 (0 : Fin 3) r l)) :=
  congrArg (fun y => Ideal.exp (two * y))
    ((plane_apply (k0_pay32 x1) ![0, 0, 0] _ _ (0 : Fin 3) rfl rfl rfl r l).trans (congrFun (shapeCast_self x1 _) _))
theorem e1_apply : k0_pay34 x1 (ix2 r l) = Ideal.exp (two * x1 (ix3 (1 : Fin 3) r l)) :=
  congrArg (fun y => Ideal.exp (two * y))
    ((plane_apply (k0_pay32 x1) ![1, 0, 0] _ _ (1 : Fin 3) rfl rfl rfl r l).trans (congrFun (shapeCast_self x1 _) _))
theorem e2_apply : k0_pay35 x1 (ix2 r l) = Ideal.exp (two * x1 (ix3 (2 : Fin 3) r l)) :=
  congrArg (fun y => Ideal.exp (two * y))
    ((plane_apply (k0_pay32 x1) ![2, 0, 0] _ _ (2 : Fin 3) rfl rfl rfl r l).trans (congrFun (shapeCast_self x1 _) _))

/-! ## The unit quaternion at a lane -/

theorem inv_apply : k0_pay7 x0 (ix2 r l) = Ideal.rsqrt (kNorm2 (qAt x0 r l)) := by
  have h : k0_pay7 x0 (ix2 r l) = Ideal.rsqrt (k0_pay3 x0 (ix2 r l) * k0_pay3 x0 (ix2 r l)
      + k0_pay4 x0 (ix2 r l) * k0_pay4 x0 (ix2 r l) + k0_pay5 x0 (ix2 r l) * k0_pay5 x0 (ix2 r l)
      + k0_pay6 x0 (ix2 r l) * k0_pay6 x0 (ix2 r l)) := rfl
  rw [h, q0_apply, q1_apply, q2_apply, q3_apply]
  rfl

theorem u0_apply : k0_pay8 x0 (ix2 r l) = kUnit (qAt x0 r l) 0 := by
  have h : k0_pay8 x0 (ix2 r l) = k0_pay3 x0 (ix2 r l) * k0_pay7 x0 (ix2 r l) := rfl
  rw [h, q0_apply, inv_apply]; rfl
theorem u1_apply : k0_pay9 x0 (ix2 r l) = kUnit (qAt x0 r l) 1 := by
  have h : k0_pay9 x0 (ix2 r l) = k0_pay4 x0 (ix2 r l) * k0_pay7 x0 (ix2 r l) := rfl
  rw [h, q1_apply, inv_apply]; rfl
theorem u2_apply : k0_pay10 x0 (ix2 r l) = kUnit (qAt x0 r l) 2 := by
  have h : k0_pay10 x0 (ix2 r l) = k0_pay5 x0 (ix2 r l) * k0_pay7 x0 (ix2 r l) := rfl
  rw [h, q2_apply, inv_apply]; rfl
theorem u3_apply : k0_pay11 x0 (ix2 r l) = kUnit (qAt x0 r l) 3 := by
  have h : k0_pay11 x0 (ix2 r l) = k0_pay6 x0 (ix2 r l) * k0_pay7 x0 (ix2 r l) := rfl
  rw [h, q3_apply, inv_apply]; rfl

/-! ## The nine rotation vectors at a lane -/

/-- The nine rotation vectors, as the body passes them on. -/
abbrev R00 : FVec Ideal S160x128 .f32 := k0_pay21 x0
abbrev R01 : FVec Ideal S160x128 .f32 := k0_pay22 x0
abbrev R02 : FVec Ideal S160x128 .f32 := k0_pay23 x0
abbrev R10 : FVec Ideal S160x128 .f32 := k0_pay24 x0
abbrev R11 : FVec Ideal S160x128 .f32 := k0_pay27 (k0_pay25 x0) (k0_pay26 (F := Ideal))
abbrev R12 : FVec Ideal S160x128 .f32 := k0_pay28 (k0_pay17 x0) (k0_pay18 x0)
abbrev R20 : FVec Ideal S160x128 .f32 := k0_pay29 (k0_pay16 x0) (k0_pay19 x0)
abbrev R21 : FVec Ideal S160x128 .f32 := k0_pay30 (k0_pay17 x0) (k0_pay18 x0)
abbrev R22 : FVec Ideal S160x128 .f32 := k0_pay31 (k0_pay12 x0) (k0_pay13 x0)

theorem r00_apply : R00 x0 (ix2 r l) = kRot (qAt x0 r l) 0 0 := by
  have h : R00 x0 (ix2 r l) = rot (k0_pay8 x0 (ix2 r l)) (k0_pay9 x0 (ix2 r l)) (k0_pay10 x0 (ix2 r l)) (k0_pay11 x0 (ix2 r l)) 0 0 := rfl
  rw [h, u0_apply, u1_apply, u2_apply, u3_apply]; rfl
theorem r01_apply : R01 x0 (ix2 r l) = kRot (qAt x0 r l) 0 1 := by
  have h : R01 x0 (ix2 r l) = rot (k0_pay8 x0 (ix2 r l)) (k0_pay9 x0 (ix2 r l)) (k0_pay10 x0 (ix2 r l)) (k0_pay11 x0 (ix2 r l)) 0 1 := rfl
  rw [h, u0_apply, u1_apply, u2_apply, u3_apply]; rfl
theorem r02_apply : R02 x0 (ix2 r l) = kRot (qAt x0 r l) 0 2 := by
  have h : R02 x0 (ix2 r l) = rot (k0_pay8 x0 (ix2 r l)) (k0_pay9 x0 (ix2 r l)) (k0_pay10 x0 (ix2 r l)) (k0_pay11 x0 (ix2 r l)) 0 2 := rfl
  rw [h, u0_apply, u1_apply, u2_apply, u3_apply]; rfl
theorem r10_apply : R10 x0 (ix2 r l) = kRot (qAt x0 r l) 1 0 := by
  have h : R10 x0 (ix2 r l) = rot (k0_pay8 x0 (ix2 r l)) (k0_pay9 x0 (ix2 r l)) (k0_pay10 x0 (ix2 r l)) (k0_pay11 x0 (ix2 r l)) 1 0 := rfl
  rw [h, u0_apply, u1_apply, u2_apply, u3_apply]; rfl
theorem r11_apply : R11 x0 (ix2 r l) = kRot (qAt x0 r l) 1 1 := by
  have h : R11 x0 (ix2 r l) = rot (k0_pay8 x0 (ix2 r l)) (k0_pay9 x0 (ix2 r l)) (k0_pay10 x0 (ix2 r l)) (k0_pay11 x0 (ix2 r l)) 1 1 := rfl
  rw [h, u0_apply, u1_apply, u2_apply, u3_apply]; rfl
theorem r12_apply : R12 x0 (ix2 r l) = kRot (qAt x0 r l) 1 2 := by
  have h : R12 x0 (ix2 r l) = rot (k0_pay8 x0 (ix2 r l)) (k0_pay9 x0 (ix2 r l)) (k0_pay10 x0 (ix2 r l)) (k0_pay11 x0 (ix2 r l)) 1 2 := rfl
  rw [h, u0_apply, u1_apply, u2_apply, u3_apply]; rfl
theorem r20_apply : R20 x0 (ix2 r l) = kRot (qAt x0 r l) 2 0 := by
  have h : R20 x0 (ix2 r l) = rot (k0_pay8 x0 (ix2 r l)) (k0_pay9 x0 (ix2 r l)) (k0_pay10 x0 (ix2 r l)) (k0_pay11 x0 (ix2 r l)) 2 0 := rfl
  rw [h, u0_apply, u1_apply, u2_apply, u3_apply]; rfl
theorem r21_apply : R21 x0 (ix2 r l) = kRot (qAt x0 r l) 2 1 := by
  have h : R21 x0 (ix2 r l) = rot (k0_pay8 x0 (ix2 r l)) (k0_pay9 x0 (ix2 r l)) (k0_pay10 x0 (ix2 r l)) (k0_pay11 x0 (ix2 r l)) 2 1 := rfl
  rw [h, u0_apply, u1_apply, u2_apply, u3_apply]; rfl
theorem r22_apply : R22 x0 (ix2 r l) = kRot (qAt x0 r l) 2 2 := by
  have h : R22 x0 (ix2 r l) = rot (k0_pay8 x0 (ix2 r l)) (k0_pay9 x0 (ix2 r l)) (k0_pay10 x0 (ix2 r l)) (k0_pay11 x0 (ix2 r l)) 2 2 := rfl
  rw [h, u0_apply, u1_apply, u2_apply, u3_apply]; rfl

/-! ## The six covariance entries and the stored block -/

/-- ∑ⱼ aⱼ·bⱼ·Eⱼ as a vector over the lanes, added up left to right, Eⱼ the j-th scale factor. -/
abbrev sig (a0 b0 a1 b1 a2 b2 : FVec Ideal S160x128 .f32) : FVec Ideal S160x128 .f32 :=
  addf (addf (mulf (mulf a0 b0) (k0_pay33 x1)) (mulf (mulf a1 b1) (k0_pay34 x1))) (mulf (mulf a2 b2) (k0_pay35 x1))

theorem sig_apply (a0 b0 a1 b1 a2 b2 : FVec Ideal S160x128 .f32) :
    sig x1 a0 b0 a1 b1 a2 b2 (ix2 r l)
      = a0 (ix2 r l) * b0 (ix2 r l) * Ideal.exp (two * x1 (ix3 (0 : Fin 3) r l))
        + a1 (ix2 r l) * b1 (ix2 r l) * Ideal.exp (two * x1 (ix3 (1 : Fin 3) r l))
        + a2 (ix2 r l) * b2 (ix2 r l) * Ideal.exp (two * x1 (ix3 (2 : Fin 3) r l)) := by
  have h : sig x1 a0 b0 a1 b1 a2 b2 (ix2 r l)
      = a0 (ix2 r l) * b0 (ix2 r l) * k0_pay33 x1 (ix2 r l) + a1 (ix2 r l) * b1 (ix2 r l) * k0_pay34 x1 (ix2 r l)
        + a2 (ix2 r l) * b2 (ix2 r l) * k0_pay35 x1 (ix2 r l) := rfl
  rw [h, e0_apply, e1_apply, e2_apply]

/-- The nine tiles that are flattened and stacked, in order: the six entries on and above the diagonal, the
    off-diagonal ones twice. -/
def tiles : Fin 9 → FVec Ideal S160x128 .f32 := fun t =>
  match t with
  | ⟨0, _⟩ => sig x1 (R00 x0) (R00 x0) (R01 x0) (R01 x0) (R02 x0) (R02 x0)
  | ⟨1, _⟩ => sig x1 (R00 x0) (R10 x0) (R01 x0) (R11 x0) (R02 x0) (R12 x0)
  | ⟨2, _⟩ => sig x1 (R00 x0) (R20 x0) (R01 x0) (R21 x0) (R02 x0) (R22 x0)
  | ⟨3, _⟩ => sig x1 (R00 x0) (R10 x0) (R01 x0) (R11 x0) (R02 x0) (R12 x0)
  | ⟨4, _⟩ => sig x1 (R10 x0) (R10 x0) (R11 x0) (R11 x0) (R12 x0) (R12 x0)
  | ⟨5, _⟩ => sig x1 (R10 x0) (R20 x0) (R11 x0) (R21 x0) (R12 x0) (R22 x0)
  | ⟨6, _⟩ => sig x1 (R00 x0) (R20 x0) (R01 x0) (R21 x0) (R02 x0) (R22 x0)
  | ⟨7, _⟩ => sig x1 (R10 x0) (R20 x0) (R11 x0) (R21 x0) (R12 x0) (R22 x0)
  | ⟨8, _⟩ => sig x1 (R20 x0) (R20 x0) (R21 x0) (R21 x0) (R22 x0) (R22 x0)

/-- Tile t at lane (r, l) is stored entry t of the Gaussian at that lane. -/
theorem tile_apply (t : Fin 9) : tiles x0 x1 t (ix2 r l) = kEntry (qAt x0 r l) (sAt x1 r l) t := by
  match t with
  | ⟨0, _⟩ =>
    show sig x1 (R00 x0) (R00 x0) (R01 x0) (R01 x0) (R02 x0) (R02 x0) (ix2 r l) = _
    rw [sig_apply, r00_apply, r01_apply, r02_apply]
    rfl
  | ⟨1, _⟩ =>
    show sig x1 (R00 x0) (R10 x0) (R01 x0) (R11 x0) (R02 x0) (R12 x0) (ix2 r l) = _
    rw [sig_apply, r00_apply, r10_apply, r01_apply, r11_apply, r02_apply, r12_apply]
    rfl
  | ⟨2, _⟩ =>
    show sig x1 (R00 x0) (R20 x0) (R01 x0) (R21 x0) (R02 x0) (R22 x0) (ix2 r l) = _
    rw [sig_apply, r00_apply, r20_apply, r01_apply, r21_apply, r02_apply, r22_apply]
    rfl
  | ⟨3, _⟩ =>
    show sig x1 (R00 x0) (R10 x0) (R01 x0) (R11 x0) (R02 x0) (R12 x0) (ix2 r l) = _
    rw [sig_apply, r00_apply, r10_apply, r01_apply, r11_apply, r02_apply, r12_apply]
    rfl
  | ⟨4, _⟩ =>
    show sig x1 (R10 x0) (R10 x0) (R11 x0) (R11 x0) (R12 x0) (R12 x0) (ix2 r l) = _
    rw [sig_apply, r10_apply, r11_apply, r12_apply]
    rfl
  | ⟨5, _⟩ =>
    show sig x1 (R10 x0) (R20 x0) (R11 x0) (R21 x0) (R12 x0) (R22 x0) (ix2 r l) = _
    rw [sig_apply, r10_apply, r20_apply, r11_apply, r21_apply, r12_apply, r22_apply]
    rfl
  | ⟨6, _⟩ =>
    show sig x1 (R00 x0) (R20 x0) (R01 x0) (R21 x0) (R02 x0) (R22 x0) (ix2 r l) = _
    rw [sig_apply, r00_apply, r20_apply, r01_apply, r21_apply, r02_apply, r22_apply]
    rfl
  | ⟨7, _⟩ =>
    show sig x1 (R10 x0) (R20 x0) (R11 x0) (R21 x0) (R12 x0) (R22 x0) (ix2 r l) = _
    rw [sig_apply, r10_apply, r20_apply, r11_apply, r21_apply, r12_apply, r22_apply]
    rfl
  | ⟨8, _⟩ =>
    show sig x1 (R20 x0) (R20 x0) (R21 x0) (R21 x0) (R22 x0) (R22 x0) (ix2 r l) = _
    rw [sig_apply, r20_apply, r21_apply, r22_apply]
    rfl

/-- The body's one stored value, as the transposed stack of the nine flattened tiles. -/
theorem payload_eq :
    k0_pay1 (R01 x0) (R02 x0) (R10 x0) (R11 x0) (R12 x0) (R20 x0) (R21 x0) (R22 x0) (k0_pay33 x1) (k0_pay34 x1) (k0_pay35 x1)
      (k0_pay36 (R00 x0) (R01 x0) (R02 x0) x1)
      (k0_pay37 (k0_pay17 x0) (k0_pay18 x0) (R00 x0) (R01 x0) (R02 x0) (R10 x0) (k0_pay25 x0) (k0_pay26 (F := Ideal)) x1)
      (k0_pay38 (k0_pay16 x0) (k0_pay19 x0) (R00 x0))
    = transpose S20480x9 [1, 0]
        (concatenate S9x20480 0 (List.ofFn fun t : Fin 9 =>
          (⟨S1x20480, shapeCast S1x20480 (shapeCast S20480 (tiles x0 x1 t) shapeCasts_S160x128_S20480) shapeCasts_S20480_S1x20480⟩ :
            (s : Shape) × (s.Idx → EReal)))
          concatenates_S1x20480_S1x20480_S1x20480_S1x20480_S1x20480_S1x20480_S1x20480_S1x20480_S1x20480_S9x20480_d0)
        transposes_S9x20480_p1_0_S20480x9 := rfl

theorem hz3 : (![0, 0, 0] : Fin 3 → Nat) = fun _ => 0 := funext fun a => by fin_cases a <;> rfl
theorem hz2 : (![0, 0] : Fin 2 → Nat) = fun _ => 0 := funext fun a => by fin_cases a <;> rfl

/-- THE BLOCK a grid point writes back, at entry (j, t), j = 128·r + l: stored entry t of the Gaussian at
    lane (r, l) of the two loaded blocks. -/
theorem block_apply (j : Fin 20480) (hj : j.val = r.val * 128 + l.val) (t : Fin 9) :
    out0_2 x0 x1 (ix2 j t) = kEntry (qAt x0 r l) (sAt x1 r l) t := by
  unfold out0_2
  rw [View.canon_unit_zero hz2, View.ld_unit_zero hz3 _ x0, View.ld_unit_zero hz3 _ x1, payload_eq]
  exact (stackedTiles_apply (tiles x0 x1) _ _ _ _ r l j hj t).trans (tile_apply x0 x1 r l t)

end Cert.KernelIdeal.Body

end
-- ==== Proof.KernelArray.lean ====
/-
  From the blocks a grid point writes to the whole [4014080, 9] array.

  Grid point t reads rows 160·t … 160·t + 159 of the two [·, 31360, 128] arrays and writes rows
  20480·t … 20480·t + 20479 of the [4014080, 9] array.  Row ρ of the output is the Gaussian whose components sit at
  (ρ / 128, ρ % 128) of every plane: inside block t, ρ = 20480·t + j and lane (r, l) = (j / 128, j % 128) is array
  position (160·t + r, l) = (ρ / 128, ρ % 128), because 20480 = 160·128.  The 196 blocks tile the array, so after
  the run it holds `G` everywhere (`final`).
-/
import proofs.«127263_j54975581389340_2_alg».proof.Proof.KernelBody

set_option maxRecDepth 16384

noncomputable section

namespace Cert.KernelIdeal.ArrayValue

open Cert.KernelIdeal Cert.KernelIdeal.Gen Cert.KernelIdeal.Body Cert.Covariance
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The quaternion of output row ρ, read off the [4, 31360, 128] array. -/
abbrev qOf (A : S4x31360x128.Idx → EReal) (ρ : Fin 4014080) : Fin 4 → EReal := fun k =>
  A (ix3 k (⟨ρ.val / 128, by have := ρ.isLt; omega⟩ : Fin 31360) (⟨ρ.val % 128, Nat.mod_lt _ (by decide)⟩ : Fin 128))
/-- The log-scales of output row ρ, read off the [3, 31360, 128] array. -/
abbrev sOf (A : S3x31360x128.Idx → EReal) (ρ : Fin 4014080) : Fin 3 → EReal := fun j =>
  A (ix3 j (⟨ρ.val / 128, by have := ρ.isLt; omega⟩ : Fin 31360) (⟨ρ.val % 128, Nat.mod_lt _ (by decide)⟩ : Fin 128))

/-- What the [4014080, 9] array holds after the run: entry (ρ, t) is stored entry t of the Gaussian of row ρ. -/
def G (A4 : S4x31360x128.Idx → EReal) (A5 : S3x31360x128.Idx → EReal) : S4014080x9.Idx → EReal := fun i =>
  kEntry (qOf A4 (i 0)) (sOf A5 (i 0)) (i 1)

/-- The printed index maps, decided over the grid: the inputs' blocks move with the output's along the long axis
    and stay at zero elsewhere. -/
theorem idx_facts : ∀ t : Fin cfg0.N, win0_0.index t (0 : Fin 3) = 0
    ∧ win0_0.index t (1 : Fin 3) = win0_2.index t (0 : Fin 2)
    ∧ win0_0.index t (2 : Fin 3) = 0
    ∧ win0_1.index t (0 : Fin 3) = 0
    ∧ win0_1.index t (1 : Fin 3) = win0_2.index t (0 : Fin 2)
    ∧ win0_1.index t (2 : Fin 3) = 0
    ∧ win0_2.index t (1 : Fin 2) = 0
    ∧ win0_2.index t (0 : Fin 2) ≤ 195 :=
  (by decide +kernel : ∀ t : Fin grid0.N, _)

/-- Every block row of the output is some point's. -/
theorem idx_onto : ∀ q : Fin 196, ∃ t : Fin cfg0.N, win0_2.index t = ![q.val, 0] :=
  (by decide +kernel : ∀ q : Fin 196, ∃ t : Fin grid0.N, win0_2.index t = ![q.val, 0])

/-- Entry (k, r, l) of point t's block of the first window's array is the array's entry (k, 160·t + r, l); for any
    contents `A` of the buffers. -/
theorem blk0_read (c : Dev nD) (A : (b : Ref sig .tc) → Buf (Elt Ideal) ((c : Thread nD τ).loc b))
    (t : Fin cfg0.N) (k : Fin 4) (r : Fin 160) (l : Fin 128) (R : Fin 31360)
    (hR : R.val = win0_2.index t (0 : Fin 2) * 160 + r.val) :
    ((cfg0.win 0).blk t).view.read (Elt Ideal) (A (Pipeline.arrRef spec0 0)) (ix3 k r l) = A main_v4 (ix3 k R l) := by
  obtain ⟨e0, e1, e2, e3, e4, e5, e6, e7⟩ := idx_facts t
  show A main_v4 (((cfg0.win 0).blk t).view.emb (ix3 k r l)) = A main_v4 (ix3 k R l)
  refine congrArg (A main_v4) (funext fun a => Fin.ext ?_)
  match a with
  | ⟨0, _⟩ => show win0_0.index t (0 : Fin 3) * 4 + 1 * k.val = k.val; omega
  | ⟨1, _⟩ => show win0_0.index t (1 : Fin 3) * 160 + 1 * r.val = R.val; omega
  | ⟨2, _⟩ => show win0_0.index t (2 : Fin 3) * 128 + 1 * l.val = l.val; omega

/-- The same for the second window's array. -/
theorem blk1_read (c : Dev nD) (A : (b : Ref sig .tc) → Buf (Elt Ideal) ((c : Thread nD τ).loc b))
    (t : Fin cfg0.N) (k : Fin 3) (r : Fin 160) (l : Fin 128) (R : Fin 31360)
    (hR : R.val = win0_2.index t (0 : Fin 2) * 160 + r.val) :
    ((cfg0.win 1).blk t).view.read (Elt Ideal) (A (Pipeline.arrRef spec0 1)) (ix3 k r l) = A main_v5 (ix3 k R l) := by
  obtain ⟨e0, e1, e2, e3, e4, e5, e6, e7⟩ := idx_facts t
  show A main_v5 (((cfg0.win 1).blk t).view.emb (ix3 k r l)) = A main_v5 (ix3 k R l)
  refine congrArg (A main_v5) (funext fun a => Fin.ext ?_)
  match a with
  | ⟨0, _⟩ => show win0_1.index t (0 : Fin 3) * 3 + 1 * k.val = k.val; omega
  | ⟨1, _⟩ => show win0_1.index t (1 : Fin 3) * 160 + 1 * r.val = R.val; omega
  | ⟨2, _⟩ => show win0_1.index t (2 : Fin 3) * 128 + 1 * l.val = l.val; omega

/-- At the contents the region finds. -/
theorem iblk0_apply (c : Dev nD) (t : Fin cfg0.N) (k : Fin 4) (r : Fin 160) (l : Fin 128) (R : Fin 31360)
    (hR : R.val = win0_2.index t (0 : Fin 2) * 160 + r.val) :
    iblk m c 0 t (ix3 k r l) = V m c main_v4 (ix3 k R l) :=
  blk0_read c (V m c) t k r l R hR
theorem iblk1_apply (c : Dev nD) (t : Fin cfg0.N) (k : Fin 3) (r : Fin 160) (l : Fin 128) (R : Fin 31360)
    (hR : R.val = win0_2.index t (0 : Fin 2) * 160 + r.val) :
    iblk m c 1 t (ix3 k r l) = V m c main_v5 (ix3 k R l) :=
  blk1_read c (V m c) t k r l R hR

/-- Entry (j, t') of point t's output block sits at row 20480·t + j, column t' of the array. -/
theorem emb2_eq (t : Fin cfg0.N) (jr : Fin 20480) (jc : Fin 9) (ρ : Fin 4014080)
    (hρ : ρ.val = win0_2.index t (0 : Fin 2) * 20480 + jr.val) :
    ((cfg0.win 2).blk t).view.emb (ix2 jr jc) = ix2 ρ jc := by
  obtain ⟨e0, e1, e2, e3, e4, e5, e6, e7⟩ := idx_facts t
  funext a
  apply Fin.ext
  match a with
  | ⟨0, _⟩ => show win0_2.index t (0 : Fin 2) * 20480 + 1 * jr.val = ρ.val; omega
  | ⟨1, _⟩ => show win0_2.index t (1 : Fin 2) * 9 + 1 * jc.val = jc.val; omega

/-- One entry of what point t writes back. -/
theorem flushed_apply (c : Dev nD) (t : Fin cfg0.N) (jr : Fin 20480) (jc : Fin 9) (ρ : Fin 4014080)
    (hρ : ρ.val = win0_2.index t (0 : Fin 2) * 20480 + jr.val) :
    out0_2 (iblk m c 0 t) (iblk m c 1 t) (ix2 jr jc) = kEntry (qOf (V m c main_v4) ρ) (sOf (V m c main_v5) ρ) jc := by
  have hjr := jr.isLt
  have hρlt := ρ.isLt
  refine (block_apply (iblk m c 0 t) (iblk m c 1 t) (⟨jr.val / 128, by omega⟩ : Fin 160)
    (⟨jr.val % 128, Nat.mod_lt _ (by decide)⟩ : Fin 128) jr (by show jr.val = jr.val / 128 * 128 + jr.val % 128; omega) jc).trans ?_
  refine congrArg₂ (fun q s => kEntry q s jc) (funext fun k => ?_) (funext fun k => ?_)
  · exact iblk0_apply m c t k (⟨jr.val / 128, by omega⟩ : Fin 160) (⟨jr.val % 128, Nat.mod_lt _ (by decide)⟩ : Fin 128)
      (⟨ρ.val / 128, by omega⟩ : Fin 31360) (by show ρ.val / 128 = win0_2.index t (0 : Fin 2) * 160 + jr.val / 128; omega) |>.trans
      (congrArg (V m c main_v4) (congrArg (ix3 k (⟨ρ.val / 128, by omega⟩ : Fin 31360)) (Fin.ext (by show jr.val % 128 = ρ.val % 128; omega))))
  · exact iblk1_apply m c t k (⟨jr.val / 128, by omega⟩ : Fin 160) (⟨jr.val % 128, Nat.mod_lt _ (by decide)⟩ : Fin 128)
      (⟨ρ.val / 128, by omega⟩ : Fin 31360) (by show ρ.val / 128 = win0_2.index t (0 : Fin 2) * 160 + jr.val / 128; omega) |>.trans
      (congrArg (V m c main_v5) (congrArg (ix3 k (⟨ρ.val / 128, by omega⟩ : Fin 31360)) (Fin.ext (by show jr.val % 128 = ρ.val % 128; omega))))

/-- WHAT POINT t WRITES BACK is block t of `G` of the two arrays as the region finds them. -/
theorem flushed_eq (c : Dev nD) (t : Fin cfg0.N) :
    (dats m 0 c).flushed 2 t
      = ((cfg0.win 2).blk t).view.read (Elt Ideal) (G (V m c main_v4) (V m c main_v5)) := by
  show (cfg0.win 2).cut (grid0.coords t) ((dats m 0 c).after 2 t) = _
  rw [after0_2]
  obtain ⟨e0, e1, e2, e3, e4, e5, e6, e7⟩ := idx_facts t
  funext y
  obtain ⟨jr, jc, rfl⟩ : ∃ (jr : Fin 20480) (jc : Fin 9), y = ix2 jr jc := ⟨y 0, y 1, eq_ix2 y⟩
  have hjr := jr.isLt
  show out0_2 (iblk m c 0 t) (iblk m c 1 t) (ix2 jr jc)
    = G (V m c main_v4) (V m c main_v5) (((cfg0.win 2).blk t).view.emb (ix2 jr jc))
  rw [emb2_eq t jr jc (⟨win0_2.index t (0 : Fin 2) * 20480 + jr.val, by omega⟩ : Fin 4014080) rfl]
  exact flushed_apply m c t jr jc _ rfl

/-- An index of the array is in point t's block iff each coordinate is in the block's range on its axis. -/
theorem mem_blk (t : Fin cfg0.N) (i : S4014080x9.Idx) :
    i ∈ ((cfg0.win 2).blk t).view.set ↔ ∀ a : Fin 2, win0_2.index t a * S20480x9.size a ≤ (i a).val
      ∧ (i a).val < win0_2.index t a * S20480x9.size a + S20480x9.size a := by
  show i ∈ ((View.whole main_v6).slice (win0_2.rect t)).set ↔ _
  rw [View.set_slice_whole, Rect.mem_set_unit]
  exact Iff.rfl

/-- The 196 blocks tile the array: row ρ is in the block of point ρ / 20480. -/
theorem cover (i : S4014080x9.Idx) : ∃ t : Fin cfg0.N, (cfg0.win 2).flush t = true ∧ i ∈ ((cfg0.win 2).blk t).view.set := by
  have hi0 : (i 0).val < 4014080 := (i 0).isLt
  have hi1 : (i 1).val < 9 := (i 1).isLt
  obtain ⟨t, ht⟩ := idx_onto ⟨(i 0).val / 20480, by omega⟩
  have q0 : win0_2.index t (0 : Fin 2) = (i 0).val / 20480 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 20480 ≤ (i 0).val ∧ (i 0).val < win0_2.index t (0 : Fin 2) * 20480 + 20480; omega
  | ⟨1, _⟩ => show win0_2.index t (1 : Fin 2) * 9 ≤ (i 1).val ∧ (i 1).val < win0_2.index t (1 : Fin 2) * 9 + 9; omega

/-- THE ARRAY after the run. -/
theorem final (c : Dev nD) : (dats m 0 c).arrAt 2 cfg0.N = G (V m c main_v4) (V m c main_v5) :=
  (dats m 0 c).arrAt_eq_of_cover 2 (G (V m c main_v4) (V m c main_v5)) (fun t _ => flushed_eq m c t) cover

end Cert.KernelIdeal.ArrayValue

end
-- ==== Proof.KernelHost.lean ====
/-
  The host operations around the kernel's launch, and the kernel's result as one function of its arguments.

  Before the launch each argument [4000000, p] is padded with 14080 zero rows, transposed to [p, 4014080] and
  viewed as [p, 31360, 128]: position (k, R, L) holds component k of row 128·R + L, an argument row when
  128·R + L < 4000000 (`relaid_apply`).  After the launch the first 4000000 rows of the [4014080, 9] array
  are kept and each row of nine is viewed as a 3×3 matrix.  So the result at (n, i, k) is stored entry
  3i + k of argument row n (`result_apply`): the padded rows are never read back.
-/
import proofs.«127263_j54975581389340_2_alg».proof.Proof.KernelArray
import Idealize.ShloMosaic.Lib.KernelVsHost
import Idealize.ShloMosaic.Lib.StableHlo.Run

set_option maxRecDepth 16384

noncomputable section

namespace Cert.KernelIdeal.HostValue

open Cert.KernelIdeal Cert.KernelIdeal.Gen Cert.KernelIdeal.Facts Cert.KernelIdeal.ArrayValue Cert.Covariance
open Idealize.ShloMosaic Idealize.ShloMosaic.TcCoe Idealize.ShloMosaic.ValueIdx Idealize.SL.Sem Idealize.ShloMosaic.StableHlo

/-- An [4000000, p] array padded by 14080 rows, transposed and viewed as [p, 31360, 128], read at (k, R, L) with
    128·R + L = n < 4000000, is the array at (n, k). -/
theorem relaid_apply {α : Type} {p : ℕ} (X : (⟨2, ![4000000, p]⟩ : Shape).Idx → α) {u : Shape} (v : u.Idx → α)
    (hp : (⟨2, ![4000000, p]⟩ : Shape).Pads ![0, 0] ![14080, 0] ![0, 0] ⟨2, ![4014080, p]⟩) (hu : 0 < u.numel)
    (ht : (⟨2, ![4014080, p]⟩ : Shape).Transposes [1, 0] ⟨2, ![p, 4014080]⟩)
    (hc : (⟨2, ![p, 4014080]⟩ : Shape).ShapeCasts ⟨3, ![p, 31360, 128]⟩)
    (k : Fin p) (R : Fin 31360) (L : Fin 128) (n : Fin 4000000) (hn : n.val = R.val * 128 + L.val) :
    shapeCast ⟨3, ![p, 31360, 128]⟩
      (transpose ⟨2, ![p, 4014080]⟩ [1, 0] (pad ⟨2, ![4014080, p]⟩ ![0, 0] ![14080, 0] ![0, 0] X v hp hu) ht) hc (ix3 k R L)
      = X (ix2 n k) := by
  have hn' : n.val < 4014080 := by have := n.isLt; omega
  refine (shapeCast_apply _ hc (ix3 k R L) (ix2 k (⟨n.val, hn'⟩ : Fin 4014080)) ?_).trans ?_
  · rw [Shape.rowMajor_val_two, Shape.rowMajor_val_three]
    show k.val * 4014080 + n.val = (k.val * 31360 + R.val) * 128 + L.val
    omega
  refine (transpose_ix2_apply _ ht k (⟨n.val, hn'⟩ : Fin 4014080)).trans ?_
  exact pad_apply_of_inside ![0, 0] ![14080, 0] ![0, 0] X v hp hu (ix2 (⟨n.val, hn'⟩ : Fin 4014080) k) (ix2 n k) (fun a => by
    match a with
    | ⟨0, _⟩ => show n.val = 0 + n.val * (0 + 1); omega
    | ⟨1, _⟩ => show k.val = 0 + k.val * (0 + 1); omega)

variable (m : (ℓ : Loc nD τ sig) → Buf (Elt Ideal) ℓ)

/-- The quaternion array as the launch finds it. -/
theorem V_v4 (c : Dev nD) : (V m c main_v4 : S4x31360x128.Idx → EReal)
    = shapeCast S4x31360x128 (transpose S4x4014080 [1, 0]
        (pad S4014080x4 ![0, 0] ![14080, 0] ![0, 0] (m ((c : Thread nD τ).loc main_arg0))
          (sitofp (F := Ideal) .f32 (constantI S_ 32 0#32)) pads_S4000000x4_S4014080x4_0140800_000 h_S_)
        transposes_S4014080x4_S4x4014080_1_0) shapeCasts_S4x4014080_S4x31360x128 := by
  dsimp only [V, V0]
  simp only [hostOps0, hostOps0_1, hostOps0_2, hostOps0_3, hostOps0_4, List.flatten_cons, List.flatten_nil, List.append_nil,
    List.cons_append, List.nil_append]
  after_results
  rfl

/-- The log-scale array as the launch finds it. -/
theorem V_v5 (c : Dev nD) : (V m c main_v5 : S3x31360x128.Idx → EReal)
    = shapeCast S3x31360x128 (transpose S3x4014080 [1, 0]
        (pad S4014080x3 ![0, 0] ![14080, 0] ![0, 0] (m ((c : Thread nD τ).loc main_arg1))
          (sitofp (F := Ideal) .f32 (constantI S_ 32 0#32)) pads_S4000000x3_S4014080x3_0140800_000 h_S_)
        transposes_S4014080x3_S3x4014080_1_0) shapeCasts_S3x4014080_S3x31360x128 := by
  dsimp only [V, V0]
  simp only [hostOps0, hostOps0_1, hostOps0_2, hostOps0_3, hostOps0_4, List.flatten_cons, List.flatten_nil, List.append_nil,
    List.cons_append, List.nil_append]
  after_results
  rfl

/-- Row n of the quaternions. -/
abbrev qrow (c : Dev nD) (n : Fin 4000000) : Fin 4 → EReal := fun k => m ((c : Thread nD τ).loc main_arg0) (ix2 n k)
/-- Row n of the log-scales. -/
abbrev srow (c : Dev nD) (n : Fin 4000000) : Fin 3 → EReal := fun j => m ((c : Thread nD τ).loc main_arg1) (ix2 n j)

/-- The kernel's result as one function of the two arguments. -/
def result (c : Dev nD) : S4000000x3x3.Idx → EReal := fun i =>
  kEntry (qrow m c (i 0)) (srow m c (i 0)) (⟨3 * (i 1).val + (i 2).val, by
    have h1 : (i 1).val < 3 := (i 1).isLt
    have h2 : (i 2).val < 3 := (i 2).isLt
    omega⟩ : Fin 9)

/-- Output row n < 4000000 of the launch's array is computed from argument row n. -/
theorem row_apply (c : Dev nD) (n : Fin 4000000) (t : Fin 9) :
    G (V m c main_v4) (V m c main_v5) (ix2 (⟨n.val, by have := n.isLt; omega⟩ : Fin 4014080) t)
      = kEntry (qrow m c n) (srow m c n) t := by
  have hq : qOf (V m c main_v4) (⟨n.val, by have := n.isLt; omega⟩ : Fin 4014080) = qrow m c n := by
    funext k
    rw [V_v4]
    exact relaid_apply _ _ _ _ _ _ k _ _ n (by show n.val = n.val / 128 * 128 + n.val % 128; omega)
  have hs : sOf (V m c main_v5) (⟨n.val, by have := n.isLt; omega⟩ : Fin 4014080) = srow m c n := by
    funext j
    rw [V_v5]
    exact relaid_apply _ _ _ _ _ _ j _ _ n (by show n.val = n.val / 128 * 128 + n.val % 128; omega)
  exact congrArg₂ (fun q s => kEntry q s t) hq hs

/-- What the host operations after the launch leave in the result buffer. -/
theorem tail_eq (c : Dev nD) :
    (Pipeline.afterTail₀ cfgs (dats m) 0 (V0 m) [hostOps1] c main_v8 : S4000000x3x3.Idx → EReal)
      = shapeCast S4000000x3x3 (extractStridedSlice S4000000x9 ![0, 0] (G (V m c main_v4) (V m c main_v5))
          slices_S4014080x9_S4000000x9_0_0) shapeCasts_S4000000x9_S4000000x3x3 := by
  have hW : Pipeline.withArrays (cfgs 0).spec c (V0 m c) (fun w => (dats m 0 c).arrAt w (cfgs 0).N) (Proc.devRef .tc main_v6)
      = G (V m c main_v4) (V m c main_v5) :=
    (Pipeline.withArrays_arr spec0 launch0.win.arr_inj c _ _ 2).trans (final m c)
  unfold Pipeline.afterTail₀
  show StableHlo.after hostOps1 _ (Proc.devRef .tc main_v8) = _
  after_results
  rw [hW]
  rfl

/-- THE KERNEL'S RESULT at (n, i, k). -/
theorem result_eq (c : Dev nD) :
    (Pipeline.afterTail₀ cfgs (dats m) 0 (V0 m) [hostOps1] c main_v8 : S4000000x3x3.Idx → EReal) = result m c := by
  rw [tail_eq]
  funext idx
  obtain ⟨n, i, k, rfl⟩ : ∃ (n : Fin 4000000) (i k : Fin 3), idx = ix3 n i k := ⟨idx 0, idx 1, idx 2, eq_ix3 idx⟩
  have hi := i.isLt
  have hk := k.isLt
  have hn := n.isLt
  refine (shapeCast_apply _ shapeCasts_S4000000x9_S4000000x3x3 (ix3 n i k) (ix2 n (⟨3 * i.val + k.val, by omega⟩ : Fin 9)) ?_).trans ?_
  · rw [Shape.rowMajor_val_two, Shape.rowMajor_val_three]
    show n.val * 9 + (3 * i.val + k.val) = (n.val * 3 + i.val) * 3 + k.val
    omega
  refine (extractStridedSlice_apply ![0, 0] _ slices_S4014080x9_S4000000x9_0_0 (ix2 n (⟨3 * i.val + k.val, by omega⟩ : Fin 9))
    (ix2 (⟨n.val, by omega⟩ : Fin 4014080) (⟨3 * i.val + k.val, by omega⟩ : Fin 9)) (fun a => by
      match a with
      | ⟨0, _⟩ => show n.val = 0 + n.val; omega
      | ⟨1, _⟩ => show 3 * i.val + k.val = 0 + (3 * i.val + k.val); omega)).trans ?_
  exact row_apply m c n _

end Cert.KernelIdeal.HostValue

end
-- ==== Proof.PreDecode.lean ====
/-
  What the precondition says about one quaternion row.

  The precondition is the conjunction of three "for all entries" tests, each a one-bit array reduced by `and`:
  |q| < +∞ for every quaternion entry, |s| < +∞ for every log-scale, and 0 < ∑ₖ q[n,k]² for every row n (the sum
  taken from zero, as the reference's norm takes it).  From it: every entry of row n is a real number and the
  row's squared length, in the reference's spelling, is positive (`row_facts`).  The log-scales' finiteness is
  not needed: exp(2x) = exp(x)² holds at the infinities too.
-/
import proofs.«127263_j54975581389340_2_alg».proof.Pre_finite_inputs
import proofs.«127263_j54975581389340_2_alg».proof.Proof.Gen.Pre_finite_inputs
import proofs.«127263_j54975581389340_2_alg».proof.Proof.Gen.ReferenceIdeal.Read
import proofs.«127263_j54975581389340_2_alg».proof.Proof.Covariance
import Idealize.ShloMosaic.Lib.ReduceAll
import Idealize.ShloMosaic.Lib.ValueIdx
import Idealize.ShloMosaic.Lib.Affine
import Idealize.ShloMosaic.PureOps.Ideal.Laws

noncomputable section

open scoped BigOperators

namespace Cert.PreDecode

open Cert.Pre_finite_inputs Cert.Pre_finite_inputs.Facts Cert.Covariance
open Idealize.ShloMosaic Idealize.ShloMosaic.ValueIdx

instance : Subsingleton S_.Idx := ⟨fun a b => funext fun d => d.elim0⟩

/-- An extended real whose absolute value is below the word of +∞ is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- "x > y" answered 1 means y < x. -/
theorem lt_of_ogt (x y : EReal) (h : Ideal.cmp .ogt x y = 1#1) : y < x := by
  by_contra hn
  have h0 : Ideal.cmp .ogt x y = 0#1 := by simp [Ideal.cmp, hn]
  rw [h0] at h
  exact absurd h (by decide)

variable (q : FVec Ideal S4000000x4 .f32) (s : FVec Ideal S4000000x3 .f32)

/-- The squared length of row n as the third test sums it is the reference's own sum. -/
theorem norm2_apply (n : Fin 4000000) :
    Host.reduceAdd (mulf q q) (constant (F := Ideal) S_ .f32 0x00000000#32) reducesTo_S4000000x4_S4000000_d1 h_S_ (ix1 n)
      = rNorm2 (fun k => q (ix2 n k)) := by
  refine Eq.trans ?_ ((Cert.ReferenceIdeal.Read.val_main_call0_v1_apply q (ix1 n)).trans ?_)
  · rfl
  · unfold rNorm2
    refine congrArg₂ (· + ·) rfl (Finset.sum_congr rfl fun k _ => ?_)
    have hi : Cert.ReferenceIdeal.Read.idx_main_call0_v1 (ix1 n) k = ix2 n k := funext fun a => Fin.ext (by
      match a with
      | ⟨0, _⟩ => rfl
      | ⟨1, _⟩ => rfl)
    rw [hi]
    rfl

/-- Row n of the quaternions under the precondition: four real numbers whose squares, summed from zero, are
    positive. -/
theorem row_facts (h : fn (F := Ideal) q s = fun _ => 1#1) (n : Fin 4000000) :
    (∀ k : Fin 4, ∃ r : ℝ, q (ix2 n k) = (r : EReal)) ∧ 0 < rNorm2 (fun k => q (ix2 n k)) := by
  have h0 := congrFun h ix0
  dsimp only [fn] at h0
  obtain ⟨hAB, hC⟩ := IntOp.andi_eq_one.mp h0
  obtain ⟨hA, -⟩ := IntOp.andi_eq_one.mp hAB
  refine ⟨fun k => ?_, ?_⟩
  · exact real_of_abs_lt _ (Host.reduce_andi_all _ _ _ _ ix0 hA (ix2 n k))
  · have hC' := Host.reduce_andi_all _ _ _ _ ix0 hC (ix1 n)
    rw [ValueIdx.cmpf_apply, Ideal.cmpf_def] at hC'
    have hpos := lt_of_ogt _ _ hC'
    rw [norm2_apply] at hpos
    have hz : broadcastInDim S4000000 ![] bcast_S_S4000000 (constant (F := Ideal) S_ .f32 0x00000000#32) (ix1 n) = (0 : EReal) :=
      Ideal.ofBits_zero_f32
    rw [hz] at hpos
    exact hpos

end Cert.PreDecode

end
-- ==== Proof.lean ====
/-
  The covariance kernel against its reference, on the extended reals.

  Both programs take 4,000,000 quaternions q and log-scale triples s and return, per Gaussian, the 3×3 matrix
  Σ = (R·diag(exp s))·(R·diag(exp s))ᵀ, R the rotation of the normalized quaternion.  The kernel pads the arguments
  to 4,014,080 rows, lays component k of Gaussian n at (k, n / 128, n % 128), computes q·rsqrt(|q|²), exp(2s) and the
  six entries on and above the diagonal lane by lane, and writes nine entries per Gaussian; the padded rows are cut
  off again.  The reference computes q / |q|, scales the columns of R by exp(s) and multiplies by the transpose.

  Under the precondition every quaternion entry is real and every row has positive squared length (Proof/PreDecode),
  so q·(√n)⁻¹ = q/√n; exp(2x) = exp(x)² on all extended reals; and the sums of products agree by commutativity
  (Proof/Covariance, `entry_eq`).  The kernel's result as a function of its arguments is Proof/KernelBody (one
  stored entry of a block), Proof/KernelArray (the blocks tile the array) and Proof/KernelHost (the re-laying before
  the launch and the cut after it); the reference's is Proof/RefRead.  The three frames are the generated runs;
  nothing was rewritten by the idealization, so `preserves` is trivial.
-/
import proofs.«127263_j54975581389340_2_alg».proof.Defs
import proofs.«127263_j54975581389340_2_alg».proof.Proof.Gen.Kernel
import proofs.«127263_j54975581389340_2_alg».proof.Proof.Gen.Kernel.Skeleton
import proofs.«127263_j54975581389340_2_alg».proof.Proof.Gen.Kernel.Launch
import proofs.«127263_j54975581389340_2_alg».proof.Proof.Gen.Kernel.Points
import proofs.«127263_j54975581389340_2_alg».proof.Proof.Gen.Kernel.Frame
import proofs.«127263_j54975581389340_2_alg».proof.Proof.Gen.KernelIdeal
import proofs.«127263_j54975581389340_2_alg».proof.Proof.Gen.KernelIdeal.Skeleton
import proofs.«127263_j54975581389340_2_alg».proof.Proof.Gen.KernelIdeal.Launch
import proofs.«127263_j54975581389340_2_alg».proof.Proof.Gen.KernelIdeal.Points
import proofs.«127263_j54975581389340_2_alg».proof.Proof.Gen.KernelIdeal.Frame
import proofs.«127263_j54975581389340_2_alg».proof.Proof.Gen.ReferenceIdeal
import proofs.«127263_j54975581389340_2_alg».proof.Proof.Gen.ReferenceIdeal.Run
import proofs.«127263_j54975581389340_2_alg».proof.Proof.Gen.ReferenceIdeal.Read
import proofs.«127263_j54975581389340_2_alg».proof.Proof.Gen.Pre_finite_inputs
import proofs.«127263_j54975581389340_2_alg».proof.Proof.Covariance
import proofs.«127263_j54975581389340_2_alg».proof.Proof.RefRead
import proofs.«127263_j54975581389340_2_alg».proof.Proof.KernelHost
import proofs.«127263_j54975581389340_2_alg».proof.Proof.PreDecode
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem Cert.Covariance

/-! ## The frames and the idealization -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

/-! ## The kernel's run, its result named -/

section KernelRun
open Cert.KernelIdeal Cert.KernelIdeal.Gen

/-- Every execution of the idealized kernel ends with the result buffer at `HostValue.result` of the arguments and
    the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v8) = Cert.KernelIdeal.HostValue.result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v8 (Pipeline.mem_restRefs_of main_v8 (by decide) (by decide))).trans (Cert.KernelIdeal.HostValue.result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end KernelRun

/-! ## The two results are one function of the arguments -/

/-- Under the precondition the reference's result at (n, i, k) is the kernel's stored entry 3i + k of row n. -/
theorem bridge (q : Cert.ReferenceIdeal.S4000000x4.Idx → EReal) (s : Cert.ReferenceIdeal.S4000000x3.Idx → EReal)
    (hpre : Cert.Pre_finite_inputs.fn (F := Ideal) q s = fun _ => 1#1) (n : Fin 4000000) (i k : Fin 3) (t : Fin 9)
    (ht : t.val = 3 * i.val + k.val) :
    Cert.ReferenceIdeal.Read.val_main_v68 (F := Ideal) q s (ix3 n i k)
      = kEntry (fun k' => q (ix2 n k')) (fun j => s (ix2 n j)) t := by
  obtain ⟨hreal, hpos⟩ := Cert.PreDecode.row_facts q s hpre n
  choose qr hqr using hreal
  have hq : (fun k' => q (ix2 n k')) = fun k' => ((qr k' : ℝ) : EReal) := funext hqr
  rw [Cert.ReferenceIdeal.RefValue.result_apply]
  show rCov (fun k' => q (ix2 n k')) (fun j => s (ix2 n j)) i k = _
  rw [hq] at hpos ⊢
  exact (entry_eq qr hpos (fun j => s (ix2 n j)) i k t ht).symm

theorem algebraic : Cert.algebraic_KernelIdeal_ReferenceIdeal := by
  intro m ρ m' ρ' hpre hagree
  refine ⟨fun c => Cert.KernelIdeal.HostValue.result m c, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v68_eq, (hagree c).1, (hagree c).2]
  funext idx
  obtain ⟨n, i, k, rfl⟩ : ∃ (n : Fin 4000000) (i k : Fin 3), idx = ix3 n i k := ⟨idx 0, idx 1, idx 2, eq_ix3 idx⟩
  exact bridge _ _ (hpre c) n i k _ rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
